-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S1x128 : Shape := ⟨2, ![1, 128]⟩
abbrev S1x8 : Shape := ⟨2, ![1, 8]⟩
abbrev S1x30 : Shape := ⟨2, ![1, 30]⟩
abbrev S264x128 : Shape := ⟨2, ![264, 128]⟩
abbrev S128 : Shape := ⟨1, ![128]⟩
abbrev S128x4 : Shape := ⟨2, ![128, 4]⟩
abbrev S4 : Shape := ⟨1, ![4]⟩
abbrev S128x5 : Shape := ⟨2, ![128, 5]⟩
abbrev S5 : Shape := ⟨1, ![5]⟩
abbrev S128x30 : Shape := ⟨2, ![128, 30]⟩
abbrev S30 : Shape := ⟨1, ![30]⟩
abbrev S128x1 : Shape := ⟨2, ![128, 1]⟩
abbrev S1 : Shape := ⟨1, ![1]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1x8 : S_.BroadcastsInDim S1x8 (![] : Fin 0 → Fin S1x8.rank)
  reducesTo_S1x8_S_d0_1 : S1x8.ReducesTo [0, 1] S_
  bcast_S_S1x30 : S_.BroadcastsInDim S1x30 (![] : Fin 0 → Fin S1x30.rank)
  reducesTo_S1x30_S_d0_1 : S1x30.ReducesTo [0, 1] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S128x1 .f32) (main_arg19 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg18
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S128x30 .f32) (main_arg15 : FVec F S30 .f32) (main_arg16 : FVec F S264x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x30 .f32 := Host.absf main_arg14
  let main_cst_26 : FVec F S_ .f32 := constant S_ .f32 0x7F800000#32
  let main_v70 : FVec F S128x30 .f32 := broadcastInDim S128x30 ![] bcast_S_S128x30 main_cst_26
  let main_v71 : IVec S128x30 1 := cmpf .olt main_v69 main_v70
  let main_c_27 : IVec S_ 1 := constantI S_ 1 1#1
  let main_v72 : IVec S_ 1 := (fun x v => Host.reduce IntOp.andi x v reducesTo_S128x30_S_d0_1 h_S_) main_v71 main_c_27
  let main_v73 : IVec S_ 1 := andi main_v68 main_v72
  let main_v74 : FVec F S30 .f32 := Host.absf main_arg15
  let main_cst_28 : FVec F S_ .f32 := constant S_ .f32 0x7F800000#32
  let main_v75 : FVec F S30 .f32 := broadcastInDim S30 ![] bcast_S_S30 main_cst_28
  let main_v76 : IVec S30 1 := cmpf .olt main_v74 main_v75
  let main_c_29 : IVec S_ 1 := constantI S_ 1 1#1
  let main_v77 : IVec S_ 1 := (fun x v => Host.reduce IntOp.andi x v reducesTo_S30_S_d0 h_S_) main_v76 main_c_29
  let main_v78 : IVec S_ 1 := andi main_v73 main_v77
  let main_v79 : FVec F S264x128 .f32 := Host.absf main_arg16
  let main_cst_30 : FVec F S_ .f32 := constant S_ .f32 0x7F800000#32
  let main_v80 : FVec F S264x128 .f32 := broadcastInDim S264x128 ![] bcast_S_S264x128 main_cst_30
  let main_v81 : IVec S264x128 1 := cmpf .olt main_v79 main_v80
  let main_c_31 : IVec S_ 1 := constantI S_ 1 1#1
  let main_v82 : IVec S_ 1 := (fun x v => Host.reduce IntOp.andi x v reducesTo_S264x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) (main_v48 : IVec S_ 1) (main_v49 : FVec F S128x5 .f32) (main_v50 : FVec F S128x5 .f32) : IVec S_ 1 :=
  let main_v51 : IVec S128x5 1 := cmpf .olt main_v49 main_v50
  let main_c_19 : IVec S_ 1 := constantI S_ 1 1#1
  let main_v52 : IVec S_ 1 := (fun x v => Host.reduce IntOp.andi x v reducesTo_S128x5_S_d0_1 h_S_) main_v51 main_c_19
  let main_v53 : IVec S_ 1 := andi main_v48 main_v52
  let main_v54 : FVec F S5 .f32 := Host.absf main_arg11
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S264x128 .f32 := Host.absf main_arg12
  let main_cst_22 : FVec F S_ .f32 := constant S_ .f32 0x7F800000#32
  let main_v60 : FVec F S264x128 .f32 := broadcastInDim S264x128 ![] bcast_S_S264x128 main_cst_22
  let main_v61 : IVec S264x128 1 := cmpf .olt main_v59 main_v60
  let main_c_23 : IVec S_ 1 := constantI S_ 1 1#1
  let main_v62 : IVec S_ 1 := (fun x v => Host.reduce IntOp.andi x v reducesTo_S264x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_v63 main_v67

def fn_part2 {F : FTy → Type} [FloatOps F] (main_arg7 : FVec F S4 .f32) (main_arg8 : FVec F S264x128 .f32) (main_arg9 : FVec F S128 .f32) (main_arg10 : FVec F S128x5 .f32) (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S264x128 .f32 := Host.absf main_arg8
  let main_cst_14 : FVec F S_ .f32 := constant S_ .f32 0x7F800000#32
  let main_v40 : FVec F S264x128 .f32 := broadcastInDim S264x128 ![] bcast_S_S264x128 main_cst_14
  let main_v41 : IVec S264x128 1 := cmpf .olt main_v39 main_v40
  let main_c_15 : IVec S_ 1 := constantI S_ 1 1#1
  let main_v42 : IVec S_ 1 := (fun x v => Host.reduce IntOp.andi x v reducesTo_S264x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x5 .f32 := Host.absf main_arg10
  let main_cst_18 : FVec F S_ .f32 := constant S_ .f32 0x7F800000#32
  let main_v50 : FVec F S128x5 .f32 := broadcastInDim S128x5 ![] bcast_S_S128x5 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S264x128 .f32) (main_arg5 : FVec F S128 .f32) (main_arg6 : FVec F S128x4 .f32) (main_arg7 : FVec F S4 .f32) (main_arg8 : FVec F S264x128 .f32) (main_arg9 : FVec F S128 .f32) (main_arg10 : FVec F S128x5 .f32) (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) (main_v13 : IVec S_ 1) (main_v16 : IVec S1x30 1) : IVec S_ 1 :=
  let main_c_5 : IVec S_ 1 := constantI S_ 1 1#1
  let main_v17 : IVec S_ 1 := (fun x v => Host.reduce IntOp.andi x v reducesTo_S1x30_S_d0_1 h_S_) main_v16 main_c_5
  let main_v18 : IVec S_ 1 := andi main_v13 main_v17
  let main_v19 : FVec F S264x128 .f32 := Host.absf main_arg4
  let main_cst_6 : FVec F S_ .f32 := constant S_ .f32 0x7F800000#32
  let main_v20 : FVec F S264x128 .f32 := broadcastInDim S264x128 ![] bcast_S_S264x128 main_cst_6
  let main_v21 : IVec S264x128 1 := cmpf .olt main_v19 main_v20
  let main_c_7 : IVec S_ 1 := constantI S_ 1 1#1
  let main_v22 : IVec S_ 1 := (fun x v => Host.reduce IntOp.andi x v reducesTo_S264x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x4 .f32 := Host.absf main_arg6
  let main_cst_10 : FVec F S_ .f32 := constant S_ .f32 0x7F800000#32
  let main_v30 : FVec F S128x4 .f32 := broadcastInDim S128x4 ![] bcast_S_S128x4 main_cst_10
  let main_v31 : IVec S128x4 1 := cmpf .olt main_v29 main_v30
  let main_c_11 : IVec S_ 1 := constantI S_ 1 1#1
  let main_v32 : IVec S_ 1 := (fun x v => Host.reduce IntOp.andi x v reducesTo_S128x4_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S400000x128 .f32) (main_arg1 : FVec F S1x128 .f32) (main_arg2 : FVec F S1x8 .f32) (main_arg3 : FVec F S1x30 .f32) (main_arg4 : FVec F S264x128 .f32) (main_arg5 : FVec F S128 .f32) (main_arg6 : FVec F S128x4 .f32) (main_arg7 : FVec F S4 .f32) (main_arg8 : FVec F S264x128 .f32) (main_arg9 : FVec F S128 .f32) (main_arg10 : FVec F S128x5 .f32) (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S1x30 .f32 := Host.absf main_arg3
  let main_cst_4 : FVec F S_ .f32 := constant S_ .f32 0x7F800000#32
  let main_v15 : FVec F S1x30 .f32 := broadcastInDim S1x30 ![] bcast_S_S1x30 main_cst_4
  let main_v16 : IVec S1x30 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S400000x128 : Shape := ⟨2, ![400000, 128]⟩
abbrev S1x128 : Shape := ⟨2, ![1, 128]⟩
abbrev S1x8 : Shape := ⟨2, ![1, 8]⟩
abbrev S1x30 : Shape := ⟨2, ![1, 30]⟩
abbrev S264x128 : Shape := ⟨2, ![264, 128]⟩
abbrev S128 : Shape := ⟨1, ![128]⟩
abbrev S128x4 : Shape := ⟨2, ![128, 4]⟩
abbrev S4 : Shape := ⟨1, ![4]⟩
abbrev S128x5 : Shape := ⟨2, ![128, 5]⟩
abbrev S5 : Shape := ⟨1, ![5]⟩
abbrev S128x30 : Shape := ⟨2, ![128, 30]⟩
abbrev S30 : Shape := ⟨1, ![30]⟩
abbrev S128x1 : Shape := ⟨2, ![128, 1]⟩
abbrev S1 : Shape := ⟨1, ![1]⟩
abbrev S1x264 : Shape := ⟨2, ![1, 264]⟩
abbrev S_ : Shape := ⟨0, ![]⟩
abbrev S1x4 : Shape := ⟨2, ![1, 4]⟩
abbrev S1x5 : Shape := ⟨2, ![1, 5]⟩
abbrev S128x128 : Shape := ⟨2, ![128, 128]⟩
abbrev S8x128 : Shape := ⟨2, ![8, 128]⟩
abbrev S1x1 : Shape := ⟨2, ![1, 1]⟩
abbrev S1x400000 : Shape := ⟨2, ![1, 400000]⟩
abbrev S16000x128 : Shape := ⟨2, ![16000, 128]⟩
abbrev S1x16000 : Shape := ⟨2, ![1, 16000]⟩
abbrev S1x400039 : Shape := ⟨2, ![1, 400039]⟩

abbrev nBuf : Space → Nat
  | .hbm => 65
  | .vmem => 8
  | .smem => 0
  | _ => 0

abbrev bufTy : (tb : Table) → Fin (tcTables nBuf tb) → BufTy
  | .hbm, ⟨0, _⟩ => ⟨S400000x128, .f32⟩
  | .hbm, ⟨1, _⟩ => ⟨S1x128, .f32⟩
  | .hbm, ⟨2, _⟩ => ⟨S1x8, .f32⟩
  | .hbm, ⟨3, _⟩ => ⟨S1x30, .f32⟩
  | .hbm, ⟨4, _⟩ => ⟨S264x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S264x128, .f32⟩
  | .hbm, ⟨9, _⟩ => ⟨S128, .f32⟩
  | .hbm, ⟨10, _⟩ => ⟨S128x5, .f32⟩
  | .hbm, ⟨11, _⟩ => ⟨S5, .f32⟩
  | .hbm, ⟨12, _⟩ => ⟨S264x128, .f32⟩
  | .hbm, ⟨13, _⟩ => ⟨S128, .f32⟩
  | .hbm, ⟨14, _⟩ => ⟨S128x30, .f32⟩
  | .hbm, ⟨15, _⟩ => ⟨S30, .f32⟩
  | .hbm, ⟨16, _⟩ => ⟨S264x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x128, .f32⟩
  | .hbm, ⟨21, _⟩ => ⟨S1x264, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x4, .f32⟩
  | .hbm, ⟨29, _⟩ => ⟨S1x4, .f32⟩
  | .hbm, ⟨30, _⟩ => ⟨S1x4, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x5, .f32⟩
  | .hbm, ⟨38, _⟩ => ⟨S1x5, .f32⟩
  | .hbm, ⟨39, _⟩ => ⟨S1x5, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x30, .f32⟩
  | .hbm, ⟨47, _⟩ => ⟨S1x30, .f32⟩
  | .hbm, ⟨48, _⟩ => ⟨S1x30, .f32⟩
  | .hbm, ⟨49, _⟩ => ⟨S1x30, .f32⟩
  | .hbm, ⟨50, _⟩ => ⟨S1x30, .f32⟩
  | .hbm, ⟨51, _⟩ => ⟨S128x128, .f32⟩
  | .hbm, ⟨52, _⟩ => ⟨S128x128, .f32⟩
  | .hbm, ⟨53, _⟩ => ⟨S8x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S128x128, .bf16⟩
  | .hbm, ⟨60, _⟩ => ⟨S1x128, .f32⟩
  | .hbm, ⟨61, _⟩ => ⟨S1x128, .bf16⟩
  | .hbm, ⟨62, _⟩ => ⟨S1x1, .f32⟩
  | .hbm, ⟨63, _⟩ => ⟨S1x400000, .f32⟩
  | .hbm, ⟨64, _⟩ => ⟨S1x400039, .f32⟩
  | .local _ .vmem, ⟨0, _⟩ => ⟨S16000x128, .f32⟩
  | .local _ .vmem, ⟨1, _⟩ => ⟨S16000x128, .f32⟩
  | .local _ .vmem, ⟨2, _⟩ => ⟨S128x128, .bf16⟩
  | .local _ .vmem, ⟨3, _⟩ => ⟨S1x128, .f32⟩
  | .local _ .vmem, ⟨4, _⟩ => ⟨S1x128, .bf16⟩
  | .local _ .vmem, ⟨5, _⟩ => ⟨S1x1, .f32⟩
  | .local _ .vmem, ⟨6, _⟩ => ⟨S1x16000, .f32⟩
  | .local _ .vmem, ⟨7, _⟩ => ⟨S1x16000, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call1_cst : Ref sig .tc := ⟨.hbm, 34, rfl⟩
abbrev main_call1_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S400000x128_S1x128_0_0 : S400000x128.Slices ![0, 0] S1x128
  concatenates_S1x128_S1x128_S1x8_S1x264_d1 : Shape.Concatenates [S1x128, S1x128, S1x8] S1x264 1
  bcast_S128_S1x128_1 : S128.BroadcastsInDim S1x128 (![1] : Fin 1 → Fin S1x128.rank)
  bcast_S_S1x128 : S_.BroadcastsInDim S1x128 (![] : Fin 0 → Fin S1x128.rank)
  bcast_S4_S1x4_1 : S4.BroadcastsInDim S1x4 (![1] : Fin 1 → Fin S1x4.rank)
  bcast_S5_S1x5_1 : S5.BroadcastsInDim S1x5 (![1] : Fin 1 → Fin S1x5.rank)
  bcast_S30_S1x30_1 : S30.BroadcastsInDim S1x30 (![1] : Fin 1 → Fin S1x30.rank)
  slices_S264x128_S128x128_0_0 : S264x128.Slices ![0, 0] S128x128
  slices_S264x128_S128x128_128_0 : S264x128.Slices ![128, 0] S128x128
  slices_S264x128_S8x128_256_0 : S264x128.Slices ![256, 0] S8x128
  bitsLt_bf16_f32 : FTy.bits .bf16 < FTy.bits .f32
  transposes_S128x1_S1x128_1_0 : S128x1.Transposes [1, 0] S1x128
  shapeCasts_S1_S1x1 : S1.ShapeCasts S1x1
  inb_S16000x128_S16000x128_0_0 : ∀ a, (![0, 0] : Fin 2 → Nat) a + S16000x128.size a ≤ S16000x128.size a
  h_S16000x128 : 0 < S16000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16000 : S1x1.Broadcasts S1x16000
  inb_S1x16000_S1x16000_0_0 : ∀ a, (![0, 0] : Fin 2 → Nat) a + S1x16000.size a ≤ S1x16000.size a
  h_S1x16000 : 0 < S1x16000.numel
  concatenates_S1x4_S1x5_S1x30_S1x400000_S1x400039_d1 : Shape.Concatenates [S1x4, S1x5, S1x30, S1x400000] S1x400039 1
  dot_S1x264_S264x128_S1x128_1_0_0_1_n_n_wf : DotDims.WF S1x264 S264x128 S1x128 [1] [0] [0] [1] [] []
  dot_S1x128_S128x4_S1x4_1_0_0_1_n_n_wf : DotDims.WF S1x128 S128x4 S1x4 [1] [0] [0] [1] [] []
  dot_S1x128_S128x5_S1x5_1_0_0_1_n_n_wf : DotDims.WF S1x128 S128x5 S1x5 [1] [0] [0] [1] [] []
  dot_S1x128_S128x30_S1x30_1_0_0_1_n_n_wf : DotDims.WF S1x128 S128x30 S1x30 [1] [0] [0] [1] [] []
  dot_S1x128_S128x128_S1x128_1_0_0_1_n_n_wf : DotDims.WF S1x128 S128x128 S1x128 [1] [0] [0] [1] [] []
  dot_S1x8_S8x128_S1x128_1_0_0_1_n_n_wf : DotDims.WF S1x8 S8x128 S1x128 [1] [0] [0] [1] [] []
  dot_S16000x128_S128x128_S16000x128_1_0_0_1_n_n_wf : DotDims.WF S16000x128 S128x128 S16000x128 [1] [0] [0] [1] [] []
  dot_S1x128_S16000x128_S1x16000_1_1_0_0_n_n_wf : DotDims.WF S1x128 S16000x128 S1x16000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S400000x128.size a
  hwx0_0 : ∀ i : grid0.Coords, EltTy.bits .f32 = 32 ∨ (Rect.block (s := S400000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .bf16 = 32 ∨ (Rect.block (s := S1x128) S1x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16000.size a ≤ S1x400000.size a
  hwx0_5 : ∀ i : grid0.Coords, EltTy.bits .f32 = 32 ∨ (Rect.block (s := S1x400000) S1x16000.size (cc0_transform_5 i) (hinb0_5 i)).WholeWords (EltTy.packing .f32)

variable [Facts₀]

def dot_S1x264_S264x128_S1x128_1_0_0_1_n_n : DotDims S1x264 S264x128 S1x128 where
  lhsContracting := [1]
  rhsContracting := [0]
  lhsNonContracting := [0]
  rhsNonContracting := [1]
  lhsBatch := []
  rhsBatch := []
  wf := dot_S1x264_S264x128_S1x128_1_0_0_1_n_n_wf
def dot_S1x128_S128x4_S1x4_1_0_0_1_n_n : DotDims S1x128 S128x4 S1x4 where
  lhsContracting := [1]
  rhsContracting := [0]
  lhsNonContracting := [0]
  rhsNonContracting := [1]
  lhsBatch := []
  rhsBatch := []
  wf := dot_S1x128_S128x4_S1x4_1_0_0_1_n_n_wf
def dot_S1x128_S128x5_S1x5_1_0_0_1_n_n : DotDims S1x128 S128x5 S1x5 where
  lhsContracting := [1]
  rhsContracting := [0]
  lhsNonContracting := [0]
  rhsNonContracting := [1]
  lhsBatch := []
  rhsBatch := []
  wf := dot_S1x128_S128x5_S1x5_1_0_0_1_n_n_wf
def dot_S1x128_S128x30_S1x30_1_0_0_1_n_n : DotDims S1x128 S128x30 S1x30 where
  lhsContracting := [1]
  rhsContracting := [0]
  lhsNonContracting := [0]
  rhsNonContracting := [1]
  lhsBatch := []
  rhsBatch := []
  wf := dot_S1x128_S128x30_S1x30_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x8_S8x128_S1x128_1_0_0_1_n_n : DotDims S1x8 S8x128 S1x128 where
  lhsContracting := [1]
  rhsContracting := [0]
  lhsNonContracting := [0]
  rhsNonContracting := [1]
  lhsBatch := []
  rhsBatch := []
  wf := dot_S1x8_S8x128_S1x128_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S1x128_S16000x128_S1x16000_1_1_0_0_n_n : DotDims S1x128 S16000x128 S1x16000 where
  lhsContracting := [1]
  rhsContracting := [1]
  lhsNonContracting := [0]
  rhsNonContracting := [0]
  lhsBatch := []
  rhsBatch := []
  wf := dot_S1x128_S16000x128_S1x16000_1_1_0_0_n_n_wf

abbrev win0_0 : Pipeline.Window sig grid0 :=
  Pipeline.Window.ofSpec (Memref.whole main_arg0) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x16000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S400000x128 : Shape := ⟨2, ![400000, 128]⟩
abbrev S1x128 : Shape := ⟨2, ![1, 128]⟩
abbrev S1x8 : Shape := ⟨2, ![1, 8]⟩
abbrev S1x30 : Shape := ⟨2, ![1, 30]⟩
abbrev S264x128 : Shape := ⟨2, ![264, 128]⟩
abbrev S128 : Shape := ⟨1, ![128]⟩
abbrev S128x4 : Shape := ⟨2, ![128, 4]⟩
abbrev S4 : Shape := ⟨1, ![4]⟩
abbrev S128x5 : Shape := ⟨2, ![128, 5]⟩
abbrev S5 : Shape := ⟨1, ![5]⟩
abbrev S128x30 : Shape := ⟨2, ![128, 30]⟩
abbrev S30 : Shape := ⟨1, ![30]⟩
abbrev S128x1 : Shape := ⟨2, ![128, 1]⟩
abbrev S1 : Shape := ⟨1, ![1]⟩
abbrev S1x264 : Shape := ⟨2, ![1, 264]⟩
abbrev S_ : Shape := ⟨0, ![]⟩
abbrev S1x4 : Shape := ⟨2, ![1, 4]⟩
abbrev S1x5 : Shape := ⟨2, ![1, 5]⟩
abbrev S400000x8 : Shape := ⟨2, ![400000, 8]⟩
abbrev S400000x264 : Shape := ⟨2, ![400000, 264]⟩
abbrev S400000x1 : Shape := ⟨2, ![400000, 1]⟩
abbrev S1x1 : Shape := ⟨2, ![1, 1]⟩
abbrev S1x400000 : Shape := ⟨2, ![1, 400000]⟩
abbrev S1x400039 : Shape := ⟨2, ![1, 400039]⟩

abbrev nBuf : Space → Nat
  | .hbm => 67
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S1x128, .f32⟩
  | .hbm, ⟨2, _⟩ => ⟨S1x8, .f32⟩
  | .hbm, ⟨3, _⟩ => ⟨S1x30, .f32⟩
  | .hbm, ⟨4, _⟩ => ⟨S264x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S264x128, .f32⟩
  | .hbm, ⟨9, _⟩ => ⟨S128, .f32⟩
  | .hbm, ⟨10, _⟩ => ⟨S128x5, .f32⟩
  | .hbm, ⟨11, _⟩ => ⟨S5, .f32⟩
  | .hbm, ⟨12, _⟩ => ⟨S264x128, .f32⟩
  | .hbm, ⟨13, _⟩ => ⟨S128, .f32⟩
  | .hbm, ⟨14, _⟩ => ⟨S128x30, .f32⟩
  | .hbm, ⟨15, _⟩ => ⟨S30, .f32⟩
  | .hbm, ⟨16, _⟩ => ⟨S264x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x128, .f32⟩
  | .hbm, ⟨21, _⟩ => ⟨S1x264, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x4, .f32⟩
  | .hbm, ⟨29, _⟩ => ⟨S1x4, .f32⟩
  | .hbm, ⟨30, _⟩ => ⟨S1x4, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x5, .f32⟩
  | .hbm, ⟨38, _⟩ => ⟨S1x5, .f32⟩
  | .hbm, ⟨39, _⟩ => ⟨S1x5, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x30, .f32⟩
  | .hbm, ⟨47, _⟩ => ⟨S1x30, .f32⟩
  | .hbm, ⟨48, _⟩ => ⟨S1x30, .f32⟩
  | .hbm, ⟨49, _⟩ => ⟨S1x30, .f32⟩
  | .hbm, ⟨50, _⟩ => ⟨S1x30, .f32⟩
  | .hbm, ⟨51, _⟩ => ⟨S400000x128, .f32⟩
  | .hbm, ⟨52, _⟩ => ⟨S400000x8, .f32⟩
  | .hbm, ⟨53, _⟩ => ⟨S400000x264, .f32⟩
  | .hbm, ⟨54, _⟩ => ⟨S400000x128, .f32⟩
  | .hbm, ⟨55, _⟩ => ⟨S1x128, .f32⟩
  | .hbm, ⟨56, _⟩ => ⟨S400000x128, .f32⟩
  | .hbm, ⟨57, _⟩ => ⟨S400000x128, .f32⟩
  | .hbm, ⟨58, _⟩ => ⟨S_, .f32⟩
  | .hbm, ⟨59, _⟩ => ⟨S400000x128, .f32⟩
  | .hbm, ⟨60, _⟩ => ⟨S400000x128, .f32⟩
  | .hbm, ⟨61, _⟩ => ⟨S400000x1, .f32⟩
  | .hbm, ⟨62, _⟩ => ⟨S1x1, .f32⟩
  | .hbm, ⟨63, _⟩ => ⟨S400000x1, .f32⟩
  | .hbm, ⟨64, _⟩ => ⟨S400000x1, .f32⟩
  | .hbm, ⟨65, _⟩ => ⟨S1x400000, .f32⟩
  | .hbm, ⟨66, _⟩ => ⟨S1x400039, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call1_cst : Ref sig .tc := ⟨.hbm, 34, rfl⟩
abbrev main_call1_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call3_cst : Ref sig .tc := ⟨.hbm, 58, rfl⟩
abbrev main_call3_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]

class Facts₀ : Prop where
  slices_S400000x128_S1x128_0_0 : S400000x128.Slices ![0, 0] S1x128
  concatenates_S1x128_S1x128_S1x8_S1x264_d1 : Shape.Concatenates [S1x128, S1x128, S1x8] S1x264 1
  bcast_S128_S1x128_1 : S128.BroadcastsInDim S1x128 (![1] : Fin 1 → Fin S1x128.rank)
  bcast_S_S1x128 : S_.BroadcastsInDim S1x128 (![] : Fin 0 → Fin S1x128.rank)
  bcast_S4_S1x4_1 : S4.BroadcastsInDim S1x4 (![1] : Fin 1 → Fin S1x4.rank)
  bcast_S5_S1x5_1 : S5.BroadcastsInDim S1x5 (![1] : Fin 1 → Fin S1x5.rank)
  bcast_S30_S1x30_1 : S30.BroadcastsInDim S1x30 (![1] : Fin 1 → Fin S1x30.rank)
  bcast_S1x128_S400000x128_0_1 : S1x128.BroadcastsInDim S400000x128 (![0, 1] : Fin 2 → Fin S400000x128.rank)
  bcast_S1x8_S400000x8_0_1 : S1x8.BroadcastsInDim S400000x8 (![0, 1] : Fin 2 → Fin S400000x8.rank)
  concatenates_S400000x128_S400000x128_S400000x8_S400000x264_d1 : Shape.Concatenates [S400000x128, S400000x128, S400000x8] S400000x264 1
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  transposes_S400000x1_S1x400000_1_0 : S400000x1.Transposes [1, 0] S1x400000
  concatenates_S1x4_S1x5_S1x30_S1x400000_S1x400039_d1 : Shape.Concatenates [S1x4, S1x5, S1x30, S1x400000] S1x400039 1
  dot_S1x264_S264x128_S1x128_1_0_0_1_n_n_wf : DotDims.WF S1x264 S264x128 S1x128 [1] [0] [0] [1] [] []
  dot_S1x128_S128x4_S1x4_1_0_0_1_n_n_wf : DotDims.WF S1x128 S128x4 S1x4 [1] [0] [0] [1] [] []
  dot_S1x128_S128x5_S1x5_1_0_0_1_n_n_wf : DotDims.WF S1x128 S128x5 S1x5 [1] [0] [0] [1] [] []
  dot_S1x128_S128x30_S1x30_1_0_0_1_n_n_wf : DotDims.WF S1x128 S128x30 S1x30 [1] [0] [0] [1] [] []
  dot_S400000x264_S264x128_S400000x128_1_0_0_1_n_n_wf : DotDims.WF S400000x264 S264x128 S400000x128 [1] [0] [0] [1] [] []
  dot_S400000x128_S128x1_S400000x1_1_0_0_1_n_n_wf : DotDims.WF S400000x128 S128x1 S400000x1 [1] [0] [0] [1] [] []

variable [Facts₀]

def dot_S1x264_S264x128_S1x128_1_0_0_1_n_n : DotDims S1x264 S264x128 S1x128 where
  lhsContracting := [1]
  rhsContracting := [0]
  lhsNonContracting := [0]
  rhsNonContracting := [1]
  lhsBatch := []
  rhsBatch := []
  wf := dot_S1x264_S264x128_S1x128_1_0_0_1_n_n_wf
def dot_S1x128_S128x4_S1x4_1_0_0_1_n_n : DotDims S1x128 S128x4 S1x4 where
  lhsContracting := [1]
  rhsContracting := [0]
  lhsNonContracting := [0]
  rhsNonContracting := [1]
  lhsBatch := []
  rhsBatch := []
  wf := dot_S1x128_S128x4_S1x4_1_0_0_1_n_n_wf
def dot_S1x128_S128x5_S1x5_1_0_0_1_n_n : DotDims S1x128 S128x5 S1x5 where
  lhsContracting := [1]
  rhsContracting := [0]
  lhsNonContracting := [0]
  rhsNonContracting := [1]
  lhsBatch := []
  rhsBatch := []
  wf := dot_S1x128_S128x5_S1x5_1_0_0_1_n_n_wf
def dot_S1x128_S128x30_S1x30_1_0_0_1_n_n : DotDims S1x128 S128x30 S1x30 where
  lhsContracting := [1]
  rhsContracting := [0]
  lhsNonContracting := [0]
  rhsNonContracting := [1]
  lhsBatch := []
  rhsBatch := []
  wf := dot_S1x128_S128x30_S1x30_1_0_0_1_n_n_wf
def dot_S400000x264_S264x128_S400000x128_1_0_0_1_n_n : DotDims S400000x264 S264x128 S400000x128 where
  lhsContracting := [1]
  rhsContracting := [0]
  lhsNonContracting := [0]
  rhsNonContracting := [1]
  lhsBatch := []
  rhsBatch := []
  wf := dot_S400000x264_S264x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.WordHost.lean ====
/-
  The host computation around the launch, for the program as printed.

  The program is a straight line: seven stretches of host operations (the three small heads of one row, and the four
  operands the launch needs: the folded bias row, the node block's weights, the second layer's weights as a row and its
  bias as a 1 × 1 array), then the launch over the 25 blocks of 16000 nodes, then one host operation that lays the three
  heads and the row of scores end to end.  This module says what every buffer holds when the launch begins (`V`: the
  launch-time memory pushed through the seven stretches), that the program is those stretches around the launch
  (`hmain`), that the one operation after the launch touches only host-visible buffers, allocates nothing and writes no
  array the launch streams (`tail_sub`, `tail_fresh`, `tail_keeps`), and that a buffer no host operation writes — every
  argument of the program among them — holds at the launch, and at the end, what it held at the start (`V_kept`,
  `end_kept`).
-/
import proofs.«143282_j32255204393220_2_alg».proof.Proof.Gen.Kernel.Launch
import proofs.«143282_j32255204393220_2_alg».proof.Proof.Gen.Kernel.Skeleton
import proofs.«143282_j32255204393220_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the launch finds -/

/-- Core `c`'s buffer contents when the launch begins: the launch-time memory after the seven stretches. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a reference of the core. -/
abbrev V (c : Dev nD) (b : Ref sig .tc) : Buf (Elt F) ((c : Thread nD τ).loc b) := V0 m c (Proc.devRef .tc b)

/-! ## No host operation allocates -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-! ## The program is the seven stretches, the launch, and the last operation -/

/-- The program reduces to the launch continued by the one operation after it, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh0_1, fresh0_2, fresh0_3, fresh0_4, fresh0_5, fresh0_6⟩) main_chain

/-! ## The operation after the launch -/

/-- It touches only buffers the host sees: the launch's arrays and the buffers that bypass the launch. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop

/-- It writes its own result only, which is none of the six arrays the launch streams. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.nary_writes, Finset.mem_singleton] <;> exact StableHlo.devRef_ne_of_ne (by decide)

/-! ## Buffers no host operation writes -/

/-- Every buffer some stretch before the launch writes. -/
abbrev written : List (Ref sig .tc) :=
  [main_v0, main_v1, main_v2, main_v3, main_v4, main_call0_cst, main_call0_v0, main_v5, main_v6, main_v7, main_v8, main_v9, main_v10,
   main_v11, main_call1_cst, main_call1_v0, main_v12, main_v13, main_v14, main_v15, main_v16, main_v17, main_v18, main_call2_cst,
   main_call2_v0, main_v19, main_v20, main_v21, main_v22, main_v23, main_v24, main_v25, main_v26, main_v27, main_v28, main_v29,
   main_v30, main_v31, main_v32, main_v33, main_v34, main_v35, main_v36]

/-- Each operation before the launch writes one buffer of that list. -/
theorem written_covers : (List.flatten [hostOps0, hostOps0_1, hostOps0_2, hostOps0_3, hostOps0_4, hostOps0_5, hostOps0_6] : List (HloOp τ sig (Elt F))).Forall
    fun op => op.writes ⊆ (written.map (Proc.devRef (τ := τ) .tc)).toFinset := by
  simp only [hostOps0, hostOps0_1, hostOps0_2, hostOps0_3, hostOps0_4, hostOps0_5, hostOps0_6, List.flatten_cons, List.flatten_nil,
    List.append_nil, List.cons_append, List.nil_append, List.Forall, StableHlo.nullary_writes, StableHlo.unary_writes,
    StableHlo.binary_writes, StableHlo.reshape_writes, StableHlo.nary_writes, Finset.singleton_subset_iff, List.mem_toFinset]
  repeat' apply And.intro
  all_goals exact List.mem_map.mpr ⟨_, by decide, rfl⟩

/-- A buffer outside that list holds at the launch what it held at the start. -/
theorem V_kept (c : Dev nD) (r : Ref sig .tc) (hr : r ∉ written) : V m c r = m ((c : Thread nD τ).loc r) :=
  StableHlo.after_of_writes_sub (W := written) _ _ written_covers hr

/-- And, if it is also neither an array of the launch nor the last operation's result, it still holds that at the end. -/
theorem end_kept (dats : (p : Fin 1) → (c : Dev nD) → Dat τ (Elt F) Unit ℕ (UR sig nD τ) ℕ (cfgs p) c) (c : Dev nD) (r : Ref sig .tc)
    (hr : r ∉ written) (harr : ∀ w, Pipeline.arrRef spec0 w ≠ r) (hlast : r ≠ main_v38) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.Forall, StableHlo.nary_writes, Finset.mem_singleton]
      exact StableHlo.devRef_ne_of_ne hlast)),
    Pipeline.withArrays_of_ne _ c (V0 m c) _ r harr]
  exact V_kept m c r hr

end Cert.Kernel.Around

end
-- ==== Proof.WordBody.lean ====
/-
  One block of the launch: what the body leaves in the output's staging buffer.

  At a grid point the body reads five whole buffers — the block of 16000 nodes, the 128 × 128 weights that meet it, the
  folded bias row, the second layer's weights as a row, its bias as a 1 × 1 array — and writes the whole 1 × 16000 output
  buffer once, with the block's scores.  (It also reads the output buffer before writing it; that value is used
  nowhere.)  So after the body the output buffer holds the stored value everywhere (`blockOut`: one store that covers the
  buffer, `blockOut_covers`), the five inputs are as they were, and nothing else is touched (`body_triple`).
-/
import proofs.«143282_j32255204393220_2_alg».proof.Proof.Gen.Kernel.Launch
import proofs.«143282_j32255204393220_2_alg».proof.Proof.Gen.Kernel.Skeleton
import proofs.«143282_j32255204393220_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each buffer whole -/

abbrev rNodes : Rect S16000x128 := Rect.unit (s := S16000x128) ![0, 0] S16000x128.size inb_S16000x128_S16000x128_0_0
abbrev rSquare : Rect S128x128 := Rect.unit (s := S128x128) ![0, 0] S128x128.size inb_S128x128_S128x128_0_0
abbrev rRow : Rect S1x128 := Rect.unit (s := S1x128) ![0, 0] S1x128.size inb_S1x128_S1x128_0_0
abbrev rOne : Rect S1x1 := Rect.unit (s := S1x1) ![0, 0] S1x1.size inb_S1x1_S1x1_0_0
abbrev rOut : Rect S1x16000 := Rect.unit (s := S1x16000) ![0, 0] S1x16000.size inb_S1x16000_S1x16000_0_0

/-- The output's staging buffer after the body, from the five input buffers: its one store, of the block's scores. -/
def blockOut (x0 : Vec F S16000x128 .f32) (x1 : Vec F S128x128 .bf16) (x2 : Vec F S1x128 .f32) (x3 : Vec F S1x128 .bf16)
    (x4 : Vec F S1x1 .f32) : Vec F S1x16000 .f32 :=
  View.canon [⟨rOut, k0_pay1 (View.ld x0 rNodes) (View.ld x1 rSquare) (View.ld x2 rRow) (View.ld x3 rRow) (View.ld x4 rOne)⟩]

/-- The one store covers the buffer. -/
theorem blockOut_covers (p0 : Vec F S1x16000 .f32) (y : S1x16000.Idx) :
    ∃ pc ∈ ([⟨rOut, p0⟩] : List (View.Piece (Elt F) S1x16000 .f32)), y ∈ pc.1.set :=
  View.cover_of_tiled [⟨rOut, p0⟩] S1x16000.size (by rfl) y

set_option maxHeartbeats 1000000 in
/-- The body on whole staging memrefs, the five inputs' at contents `x0 … x4` and the output's at anything, runs to the
    continuation holding the inputs' as they were and the output's at `blockOut` of them. -/
theorem body_triple (c : Dev nD) (E : Set ℕ) (i : grid0.Coords)
    (arg1 : Memref sig .tc .vmem S16000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S1x128 .bf16) (harg4 : arg4.IsWhole)
    (arg5 : Memref sig .tc .vmem S1x1 .f32) (harg5 : arg5.IsWhole) (arg6 : Memref sig .tc .vmem S1x16000 .f32) (harg6 : arg6.IsWhole)
    (x0 : Vec F S16000x128 .f32) (x1 : Vec F S128x128 .bf16) (x2 : Vec F S1x128 .f32) (x3 : Vec F S1x128 .bf16) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockOut x0 x1 x2 x3 x4)) -∗ K ⟨⟩))
      ⊢ wp frame (wpE (defs₀ (F := F)) Variants.none c none) E
          (cc0__teleport_kernel i arg1 harg1 arg2 harg2 arg3 harg3 arg4 harg4 arg5 harg5 arg6 harg6) K := by
  simp only [cc0__teleport_kernel_eq_skeleton]; unfold cc0__teleport_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (blockOut_covers _)

end Cert.Kernel.Around

end
-- ==== Proof.WordFrame.lean ====
/-
  The launch as a whole, and the program's frame.

  The launch streams six arrays: the node table in blocks of 16000 rows, four operands that every block shares (each
  brought in once, at the first block, and left in place), and the row of 400000 scores written back block by block.
  Here: the block of each array a grid point sees, read off the contents the launch found (`iblk`); that an input's
  staging buffer holds its block at every point, brought in there or earlier (`before_w_of`); the bookkeeping of what
  each buffer holds after the body at each point (`dats`: inputs unchanged, the output at the block's scores); that
  the body meets it at every point (`body_obligation`); the run of the whole program (`run_main`): it terminates,
  nothing faults, every streamed array ends as that bookkeeping computes and every other host-visible buffer as the one
  operation after the launch leaves it; and from it the frame: the twenty argument arrays end as they began (`frame`).
-/
import proofs.«143282_j32255204393220_2_alg».proof.Proof.WordHost
import proofs.«143282_j32255204393220_2_alg».proof.Proof.WordBody

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input's staging buffer holds its block at every point

For any bookkeeping whose array is the one the launch found and whose body leaves the block in place: at a point that
brings the block in, that is what a fetch puts there; at a point that does not, the block index has not moved since the
last fetch. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The bookkeeping -/

/-- On core `c`: the arrays as the launch finds them; after the body at point `t` each input's buffer at its block and
    the output's at the scores of the node block; nothing else kept between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

/-- The bookkeeping's arrays are the launch-time contents (its definition projected, so that the long fold behind `V`
    is never unfolded to see it). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = blockOut (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body at a generic point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The inputs' buffers hold their blocks, so the body's triple applies; what is kept between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the bookkeeping at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and in every final state
    each streamed array holds what the bookkeeping computes for it after the last point and every other host-visible
    buffer what the operation after the launch leaves in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The frame -/

/-- The twenty argument arrays end as they began: the node table is a streamed INPUT, so its array never changes; the
    other nineteen bypass the launch and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_kept m c main_arg0 (by decide)))),
      ((h c).2 main_arg1 (Pipeline.mem_restRefs_of main_arg1 (by decide) (by decide))).trans (end_kept m dats c main_arg1 (by decide) (by exact (by decide : ∀ w, Pipeline.arrRef spec0 w ≠ main_arg1)) (by decide)),
      ((h c).2 main_arg2 (Pipeline.mem_restRefs_of main_arg2 (by decide) (by decide))).trans (end_kept m dats c main_arg2 (by decide) (by exact (by decide : ∀ w, Pipeline.arrRef spec0 w ≠ main_arg2)) (by decide)),
      ((h c).2 main_arg3 (Pipeline.mem_restRefs_of main_arg3 (by decide) (by decide))).trans (end_kept m dats c main_arg3 (by decide) (by exact (by decide : ∀ w, Pipeline.arrRef spec0 w ≠ main_arg3)) (by decide)),
      ((h c).2 main_arg4 (Pipeline.mem_restRefs_of main_arg4 (by decide) (by decide))).trans (end_kept m dats c main_arg4 (by decide) (by exact (by decide : ∀ w, Pipeline.arrRef spec0 w ≠ main_arg4)) (by decide)),
      ((h c).2 main_arg5 (Pipeline.mem_restRefs_of main_arg5 (by decide) (by decide))).trans (end_kept m dats c main_arg5 (by decide) (by exact (by decide : ∀ w, Pipeline.arrRef spec0 w ≠ main_arg5)) (by decide)),
      ((h c).2 main_arg6 (Pipeline.mem_restRefs_of main_arg6 (by decide) (by decide))).trans (end_kept m dats c main_arg6 (by decide) (by exact (by decide : ∀ w, Pipeline.arrRef spec0 w ≠ main_arg6)) (by decide)),
      ((h c).2 main_arg7 (Pipeline.mem_restRefs_of main_arg7 (by decide) (by decide))).trans (end_kept m dats c main_arg7 (by decide) (by exact (by decide : ∀ w, Pipeline.arrRef spec0 w ≠ main_arg7)) (by decide)),
      ((h c).2 main_arg8 (Pipeline.mem_restRefs_of main_arg8 (by decide) (by decide))).trans (end_kept m dats c main_arg8 (by decide) (by exact (by decide : ∀ w, Pipeline.arrRef spec0 w ≠ main_arg8)) (by decide)),
      ((h c).2 main_arg9 (Pipeline.mem_restRefs_of main_arg9 (by decide) (by decide))).trans (end_kept m dats c main_arg9 (by decide) (by exact (by decide : ∀ w, Pipeline.arrRef spec0 w ≠ main_arg9)) (by decide)),
      ((h c).2 main_arg10 (Pipeline.mem_restRefs_of main_arg10 (by decide) (by decide))).trans (end_kept m dats c main_arg10 (by decide) (by exact (by decide : ∀ w, Pipeline.arrRef spec0 w ≠ main_arg10)) (by decide)),
      ((h c).2 main_arg11 (Pipeline.mem_restRefs_of main_arg11 (by decide) (by decide))).trans (end_kept m dats c main_arg11 (by decide) (by exact (by decide : ∀ w, Pipeline.arrRef spec0 w ≠ main_arg11)) (by decide)),
      ((h c).2 main_arg12 (Pipeline.mem_restRefs_of main_arg12 (by decide) (by decide))).trans (end_kept m dats c main_arg12 (by decide) (by exact (by decide : ∀ w, Pipeline.arrRef spec0 w ≠ main_arg12)) (by decide)),
      ((h c).2 main_arg13 (Pipeline.mem_restRefs_of main_arg13 (by decide) (by decide))).trans (end_kept m dats c main_arg13 (by decide) (by exact (by decide : ∀ w, Pipeline.arrRef spec0 w ≠ main_arg13)) (by decide)),
      ((h c).2 main_arg14 (Pipeline.mem_restRefs_of main_arg14 (by decide) (by decide))).trans (end_kept m dats c main_arg14 (by decide) (by exact (by decide : ∀ w, Pipeline.arrRef spec0 w ≠ main_arg14)) (by decide)),
      ((h c).2 main_arg15 (Pipeline.mem_restRefs_of main_arg15 (by decide) (by decide))).trans (end_kept m dats c main_arg15 (by decide) (by exact (by decide : ∀ w, Pipeline.arrRef spec0 w ≠ main_arg15)) (by decide)),
      ((h c).2 main_arg16 (Pipeline.mem_restRefs_of main_arg16 (by decide) (by decide))).trans (end_kept m dats c main_arg16 (by decide) (by exact (by decide : ∀ w, Pipeline.arrRef spec0 w ≠ main_arg16)) (by decide)),
      ((h c).2 main_arg17 (Pipeline.mem_restRefs_of main_arg17 (by decide) (by decide))).trans (end_kept m dats c main_arg17 (by decide) (by exact (by decide : ∀ w, Pipeline.arrRef spec0 w ≠ main_arg17)) (by decide)),
      ((h c).2 main_arg18 (Pipeline.mem_restRefs_of main_arg18 (by decide) (by decide))).trans (end_kept m dats c main_arg18 (by decide) (by exact (by decide : ∀ w, Pipeline.arrRef spec0 w ≠ main_arg18)) (by decide)),
      ((h c).2 main_arg19 (Pipeline.mem_restRefs_of main_arg19 (by decide) (by decide))).trans (end_kept m dats c main_arg19 (by decide) (by exact (by decide : ∀ w, Pipeline.arrRef spec0 w ≠ main_arg19)) (by decide))⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.Kernel.Around

end
-- ==== Proof.IdealHost.lean ====
/-
  The host computation around the launch, for the program read at exact arithmetic.

  The program is a straight line: seven stretches of host operations (the three small heads of one row, and the four
  operands the launch needs: the folded bias row, the node block's weights, the second layer's weights as a row and its
  bias as a 1 × 1 array), then the launch over the 25 blocks of 16000 nodes, then one host operation that lays the three
  heads and the row of scores end to end.  This module says what every buffer holds when the launch begins (`V`: the
  launch-time memory pushed through the seven stretches), that the program is those stretches around the launch
  (`hmain`), that the one operation after the launch touches only host-visible buffers, allocates nothing and writes no
  array the launch streams (`tail_sub`, `tail_fresh`, `tail_keeps`), and that a buffer no host operation writes — every
  argument of the program among them — holds at the launch, and at the end, what it held at the start (`V_kept`,
  `end_kept`).
-/
import proofs.«143282_j32255204393220_2_alg».proof.Proof.Gen.KernelIdeal.Launch
import proofs.«143282_j32255204393220_2_alg».proof.Proof.Gen.KernelIdeal.Skeleton
import proofs.«143282_j32255204393220_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the launch finds -/

/-- Core `c`'s buffer contents when the launch begins: the launch-time memory after the seven stretches. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a reference of the core. -/
abbrev V (c : Dev nD) (b : Ref sig .tc) : Buf (Elt F) ((c : Thread nD τ).loc b) := V0 m c (Proc.devRef .tc b)

/-! ## No host operation allocates -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-! ## The program is the seven stretches, the launch, and the last operation -/

/-- The program reduces to the launch continued by the one operation after it, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh0_1, fresh0_2, fresh0_3, fresh0_4, fresh0_5, fresh0_6⟩) main_chain

/-! ## The operation after the launch -/

/-- It touches only buffers the host sees: the launch's arrays and the buffers that bypass the launch. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop

/-- It writes its own result only, which is none of the six arrays the launch streams. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.nary_writes, Finset.mem_singleton] <;> exact StableHlo.devRef_ne_of_ne (by decide)

/-! ## Buffers no host operation writes -/

/-- Every buffer some stretch before the launch writes. -/
abbrev written : List (Ref sig .tc) :=
  [main_v0, main_v1, main_v2, main_v3, main_v4, main_call0_cst, main_call0_v0, main_v5, main_v6, main_v7, main_v8, main_v9, main_v10,
   main_v11, main_call1_cst, main_call1_v0, main_v12, main_v13, main_v14, main_v15, main_v16, main_v17, main_v18, main_call2_cst,
   main_call2_v0, main_v19, main_v20, main_v21, main_v22, main_v23, main_v24, main_v25, main_v26, main_v27, main_v28, main_v29,
   main_v30, main_v31, main_v32, main_v33, main_v34, main_v35, main_v36]

/-- Each operation before the launch writes one buffer of that list. -/
theorem written_covers : (List.flatten [hostOps0, hostOps0_1, hostOps0_2, hostOps0_3, hostOps0_4, hostOps0_5, hostOps0_6] : List (HloOp τ sig (Elt F))).Forall
    fun op => op.writes ⊆ (written.map (Proc.devRef (τ := τ) .tc)).toFinset := by
  simp only [hostOps0, hostOps0_1, hostOps0_2, hostOps0_3, hostOps0_4, hostOps0_5, hostOps0_6, List.flatten_cons, List.flatten_nil,
    List.append_nil, List.cons_append, List.nil_append, List.Forall, StableHlo.nullary_writes, StableHlo.unary_writes,
    StableHlo.binary_writes, StableHlo.reshape_writes, StableHlo.nary_writes, Finset.singleton_subset_iff, List.mem_toFinset]
  repeat' apply And.intro
  all_goals exact List.mem_map.mpr ⟨_, by decide, rfl⟩

/-- A buffer outside that list holds at the launch what it held at the start. -/
theorem V_kept (c : Dev nD) (r : Ref sig .tc) (hr : r ∉ written) : V m c r = m ((c : Thread nD τ).loc r) :=
  StableHlo.after_of_writes_sub (W := written) _ _ written_covers hr

/-- And, if it is also neither an array of the launch nor the last operation's result, it still holds that at the end. -/
theorem end_kept (dats : (p : Fin 1) → (c : Dev nD) → Dat τ (Elt F) Unit ℕ (UR sig nD τ) ℕ (cfgs p) c) (c : Dev nD) (r : Ref sig .tc)
    (hr : r ∉ written) (harr : ∀ w, Pipeline.arrRef spec0 w ≠ r) (hlast : r ≠ main_v38) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.Forall, StableHlo.nary_writes, Finset.mem_singleton]
      exact StableHlo.devRef_ne_of_ne hlast)),
    Pipeline.withArrays_of_ne _ c (V0 m c) _ r harr]
  exact V_kept m c r hr

end Cert.KernelIdeal.Around

end
-- ==== Proof.IdealBody.lean ====
/-
  One block of the launch: what the body leaves in the output's staging buffer.

  At a grid point the body reads five whole buffers — the block of 16000 nodes, the 128 × 128 weights that meet it, the
  folded bias row, the second layer's weights as a row, its bias as a 1 × 1 array — and writes the whole 1 × 16000 output
  buffer once, with the block's scores.  (It also reads the output buffer before writing it; that value is used
  nowhere.)  So after the body the output buffer holds the stored value everywhere (`blockOut`: one store that covers the
  buffer, `blockOut_covers`), the five inputs are as they were, and nothing else is touched (`body_triple`).
-/
import proofs.«143282_j32255204393220_2_alg».proof.Proof.Gen.KernelIdeal.Launch
import proofs.«143282_j32255204393220_2_alg».proof.Proof.Gen.KernelIdeal.Skeleton
import proofs.«143282_j32255204393220_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each buffer whole -/

abbrev rNodes : Rect S16000x128 := Rect.unit (s := S16000x128) ![0, 0] S16000x128.size inb_S16000x128_S16000x128_0_0
abbrev rSquare : Rect S128x128 := Rect.unit (s := S128x128) ![0, 0] S128x128.size inb_S128x128_S128x128_0_0
abbrev rRow : Rect S1x128 := Rect.unit (s := S1x128) ![0, 0] S1x128.size inb_S1x128_S1x128_0_0
abbrev rOne : Rect S1x1 := Rect.unit (s := S1x1) ![0, 0] S1x1.size inb_S1x1_S1x1_0_0
abbrev rOut : Rect S1x16000 := Rect.unit (s := S1x16000) ![0, 0] S1x16000.size inb_S1x16000_S1x16000_0_0

/-- The output's staging buffer after the body, from the five input buffers: its one store, of the block's scores. -/
def blockOut (x0 : Vec F S16000x128 .f32) (x1 : Vec F S128x128 .bf16) (x2 : Vec F S1x128 .f32) (x3 : Vec F S1x128 .bf16)
    (x4 : Vec F S1x1 .f32) : Vec F S1x16000 .f32 :=
  View.canon [⟨rOut, k0_pay1 (View.ld x0 rNodes) (View.ld x1 rSquare) (View.ld x2 rRow) (View.ld x3 rRow) (View.ld x4 rOne)⟩]

/-- The one store covers the buffer. -/
theorem blockOut_covers (p0 : Vec F S1x16000 .f32) (y : S1x16000.Idx) :
    ∃ pc ∈ ([⟨rOut, p0⟩] : List (View.Piece (Elt F) S1x16000 .f32)), y ∈ pc.1.set :=
  View.cover_of_tiled [⟨rOut, p0⟩] S1x16000.size (by rfl) y

set_option maxHeartbeats 1000000 in
/-- The body on whole staging memrefs, the five inputs' at contents `x0 … x4` and the output's at anything, runs to the
    continuation holding the inputs' as they were and the output's at `blockOut` of them. -/
theorem body_triple (c : Dev nD) (E : Set ℕ) (i : grid0.Coords)
    (arg1 : Memref sig .tc .vmem S16000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S1x128 .bf16) (harg4 : arg4.IsWhole)
    (arg5 : Memref sig .tc .vmem S1x1 .f32) (harg5 : arg5.IsWhole) (arg6 : Memref sig .tc .vmem S1x16000 .f32) (harg6 : arg6.IsWhole)
    (x0 : Vec F S16000x128 .f32) (x1 : Vec F S128x128 .bf16) (x2 : Vec F S1x128 .f32) (x3 : Vec F S1x128 .bf16) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockOut x0 x1 x2 x3 x4)) -∗ K ⟨⟩))
      ⊢ wp frame (wpE (defs₀ (F := F)) Variants.none c none) E
          (cc0__teleport_kernel i arg1 harg1 arg2 harg2 arg3 harg3 arg4 harg4 arg5 harg5 arg6 harg6) K := by
  simp only [cc0__teleport_kernel_eq_skeleton]; unfold cc0__teleport_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (blockOut_covers _)

end Cert.KernelIdeal.Around

end
-- ==== Proof.IdealFrame.lean ====
/-
  The launch as a whole, and the program's frame.

  The launch streams six arrays: the node table in blocks of 16000 rows, four operands that every block shares (each
  brought in once, at the first block, and left in place), and the row of 400000 scores written back block by block.
  Here: the block of each array a grid point sees, read off the contents the launch found (`iblk`); that an input's
  staging buffer holds its block at every point, brought in there or earlier (`before_w_of`); the bookkeeping of what
  each buffer holds after the body at each point (`dats`: inputs unchanged, the output at the block's scores); that
  the body meets it at every point (`body_obligation`); the run of the whole program (`run_main`): it terminates,
  nothing faults, every streamed array ends as that bookkeeping computes and every other host-visible buffer as the one
  operation after the launch leaves it; and from it the frame: the twenty argument arrays end as they began (`frame`).
-/
import proofs.«143282_j32255204393220_2_alg».proof.Proof.IdealHost
import proofs.«143282_j32255204393220_2_alg».proof.Proof.IdealBody

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input's staging buffer holds its block at every point

For any bookkeeping whose array is the one the launch found and whose body leaves the block in place: at a point that
brings the block in, that is what a fetch puts there; at a point that does not, the block index has not moved since the
last fetch. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The bookkeeping -/

/-- On core `c`: the arrays as the launch finds them; after the body at point `t` each input's buffer at its block and
    the output's at the scores of the node block; nothing else kept between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

/-- The bookkeeping's arrays are the launch-time contents (its definition projected, so that the long fold behind `V`
    is never unfolded to see it). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = blockOut (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body at a generic point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The inputs' buffers hold their blocks, so the body's triple applies; what is kept between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the bookkeeping at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and in every final state
    each streamed array holds what the bookkeeping computes for it after the last point and every other host-visible
    buffer what the operation after the launch leaves in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The frame -/

/-- The twenty argument arrays end as they began: the node table is a streamed INPUT, so its array never changes; the
    other nineteen bypass the launch and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_kept m c main_arg0 (by decide)))),
      ((h c).2 main_arg1 (Pipeline.mem_restRefs_of main_arg1 (by decide) (by decide))).trans (end_kept m dats c main_arg1 (by decide) (by exact (by decide : ∀ w, Pipeline.arrRef spec0 w ≠ main_arg1)) (by decide)),
      ((h c).2 main_arg2 (Pipeline.mem_restRefs_of main_arg2 (by decide) (by decide))).trans (end_kept m dats c main_arg2 (by decide) (by exact (by decide : ∀ w, Pipeline.arrRef spec0 w ≠ main_arg2)) (by decide)),
      ((h c).2 main_arg3 (Pipeline.mem_restRefs_of main_arg3 (by decide) (by decide))).trans (end_kept m dats c main_arg3 (by decide) (by exact (by decide : ∀ w, Pipeline.arrRef spec0 w ≠ main_arg3)) (by decide)),
      ((h c).2 main_arg4 (Pipeline.mem_restRefs_of main_arg4 (by decide) (by decide))).trans (end_kept m dats c main_arg4 (by decide) (by exact (by decide : ∀ w, Pipeline.arrRef spec0 w ≠ main_arg4)) (by decide)),
      ((h c).2 main_arg5 (Pipeline.mem_restRefs_of main_arg5 (by decide) (by decide))).trans (end_kept m dats c main_arg5 (by decide) (by exact (by decide : ∀ w, Pipeline.arrRef spec0 w ≠ main_arg5)) (by decide)),
      ((h c).2 main_arg6 (Pipeline.mem_restRefs_of main_arg6 (by decide) (by decide))).trans (end_kept m dats c main_arg6 (by decide) (by exact (by decide : ∀ w, Pipeline.arrRef spec0 w ≠ main_arg6)) (by decide)),
      ((h c).2 main_arg7 (Pipeline.mem_restRefs_of main_arg7 (by decide) (by decide))).trans (end_kept m dats c main_arg7 (by decide) (by exact (by decide : ∀ w, Pipeline.arrRef spec0 w ≠ main_arg7)) (by decide)),
      ((h c).2 main_arg8 (Pipeline.mem_restRefs_of main_arg8 (by decide) (by decide))).trans (end_kept m dats c main_arg8 (by decide) (by exact (by decide : ∀ w, Pipeline.arrRef spec0 w ≠ main_arg8)) (by decide)),
      ((h c).2 main_arg9 (Pipeline.mem_restRefs_of main_arg9 (by decide) (by decide))).trans (end_kept m dats c main_arg9 (by decide) (by exact (by decide : ∀ w, Pipeline.arrRef spec0 w ≠ main_arg9)) (by decide)),
      ((h c).2 main_arg10 (Pipeline.mem_restRefs_of main_arg10 (by decide) (by decide))).trans (end_kept m dats c main_arg10 (by decide) (by exact (by decide : ∀ w, Pipeline.arrRef spec0 w ≠ main_arg10)) (by decide)),
      ((h c).2 main_arg11 (Pipeline.mem_restRefs_of main_arg11 (by decide) (by decide))).trans (end_kept m dats c main_arg11 (by decide) (by exact (by decide : ∀ w, Pipeline.arrRef spec0 w ≠ main_arg11)) (by decide)),
      ((h c).2 main_arg12 (Pipeline.mem_restRefs_of main_arg12 (by decide) (by decide))).trans (end_kept m dats c main_arg12 (by decide) (by exact (by decide : ∀ w, Pipeline.arrRef spec0 w ≠ main_arg12)) (by decide)),
      ((h c).2 main_arg13 (Pipeline.mem_restRefs_of main_arg13 (by decide) (by decide))).trans (end_kept m dats c main_arg13 (by decide) (by exact (by decide : ∀ w, Pipeline.arrRef spec0 w ≠ main_arg13)) (by decide)),
      ((h c).2 main_arg14 (Pipeline.mem_restRefs_of main_arg14 (by decide) (by decide))).trans (end_kept m dats c main_arg14 (by decide) (by exact (by decide : ∀ w, Pipeline.arrRef spec0 w ≠ main_arg14)) (by decide)),
      ((h c).2 main_arg15 (Pipeline.mem_restRefs_of main_arg15 (by decide) (by decide))).trans (end_kept m dats c main_arg15 (by decide) (by exact (by decide : ∀ w, Pipeline.arrRef spec0 w ≠ main_arg15)) (by decide)),
      ((h c).2 main_arg16 (Pipeline.mem_restRefs_of main_arg16 (by decide) (by decide))).trans (end_kept m dats c main_arg16 (by decide) (by exact (by decide : ∀ w, Pipeline.arrRef spec0 w ≠ main_arg16)) (by decide)),
      ((h c).2 main_arg17 (Pipeline.mem_restRefs_of main_arg17 (by decide) (by decide))).trans (end_kept m dats c main_arg17 (by decide) (by exact (by decide : ∀ w, Pipeline.arrRef spec0 w ≠ main_arg17)) (by decide)),
      ((h c).2 main_arg18 (Pipeline.mem_restRefs_of main_arg18 (by decide) (by decide))).trans (end_kept m dats c main_arg18 (by decide) (by exact (by decide : ∀ w, Pipeline.arrRef spec0 w ≠ main_arg18)) (by decide)),
      ((h c).2 main_arg19 (Pipeline.mem_restRefs_of main_arg19 (by decide) (by decide))).trans (end_kept m dats c main_arg19 (by decide) (by exact (by decide : ∀ w, Pipeline.arrRef spec0 w ≠ main_arg19)) (by decide))⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.KernelIdeal.Around

end
-- ==== Proof.IdealLaunched.lean ====
/-
  What the launch finds in its four shared operand arrays, as functions of the program's arguments.

  Each of the four is written once by the host before the launch, by a short chain of operations on the arguments:
  the folded bias row is `(g · W[0:128] + s · W[256:264]) + b₁` spread as a row; the node block's weights are rows 128 to 255 of
  `W` in the narrower float format; the second layer's weights are `w₂` transposed to a row, in the narrower format; its
  bias is `b₂` re-laid as a 1 × 1 array.  Reading the launch-time contents through the host operations that precede the
  launch gives exactly these terms.
-/
import proofs.«143282_j32255204393220_2_alg».proof.Proof.IdealHost

set_option maxRecDepth 16384

noncomputable section

namespace Cert.KernelIdeal.Around

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- The folded bias row. -/
theorem V_folded (c : Dev nD) : V m c main_v32 = addf (addf (Host.dotGeneral dot_S1x128_S128x128_S1x128_1_0_0_1_n_n none (m ((c : Thread nD τ).loc main_arg1)) (extractStridedSlice S128x128 ![0, 0] (m ((c : Thread nD τ).loc main_arg16)) slices_S264x128_S128x128_0_0)) (Host.dotGeneral dot_S1x8_S8x128_S1x128_1_0_0_1_n_n none (m ((c : Thread nD τ).loc main_arg2)) (extractStridedSlice S8x128 ![256, 0] (m ((c : Thread nD τ).loc main_arg16)) slices_S264x128_S8x128_256_0))) (broadcastInDim S1x128 ![1] bcast_S128_S1x128_1 (m ((c : Thread nD τ).loc main_arg17))) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
/-- The node block's weights. -/
theorem V_square (c : Dev nD) : V m c main_v33 = truncf .bf16 (extractStridedSlice S128x128 ![128, 0] (m ((c : Thread nD τ).loc main_arg16)) slices_S264x128_S128x128_128_0) bitsLt_bf16_f32 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
/-- The second layer's weights as a row. -/
theorem V_row (c : Dev nD) : V m c main_v35 = truncf .bf16 (transpose S1x128 [1, 0] (m ((c : Thread nD τ).loc main_arg18)) transposes_S128x1_S1x128_1_0) bitsLt_bf16_f32 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
/-- The second layer's bias as a 1 × 1 array. -/
theorem V_one (c : Dev nD) : V m c main_v36 = fun i => shapeCast S1x1 (m ((c : Thread nD τ).loc main_arg19)) shapeCasts_S1_S1x1 i := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

end Cert.KernelIdeal.Around

end
-- ==== Proof.Spec.lean ====
/-
  The score a two-layer perceptron gives every row of a table, over the extended reals.

  A node `n` is described by the row `(g, x n, s)`: a vector `g` of 128 entries shared by all nodes, the node's own 128
  entries `x n`, and a vector `s` of 8 entries shared by all nodes.  The first layer multiplies that row of 264 entries
  by a matrix `W` with 264 rows and 128 columns and adds `b₁`; read block by block of the row, hidden unit `j` receives

      pre n j = ((∑ k < 128, g k · W k j) + (∑ k < 128, x n k · W (128 + k) j) + (∑ k < 8, s k · W (256 + k) j)) + b₁ j .

  The second layer takes the positive part and contracts it with the column `w₂`:

      score n = (∑ j < 128, max (pre n j) 0 · w₂ j) + b₂ .

  The same number can be computed with the two shared blocks folded once into a row `c j = ((∑ g·W) + (∑ s·W)) + b₁ j`
  that does not depend on the node, the node's own block added to it, and the factors of the last product exchanged
  (`blockScore`).  The two agree on all extended reals: only commutativity and associativity of `+` and commutativity
  of `·` are used, which hold at the infinities too, so no entry needs to be finite (`blockScore_eq_score`).
-/
import Idealize.ShloMosaic.PureOps.Ideal
import Idealize.ShloMosaic.Lib.ValueIdx

noncomputable section

namespace Cert.Teleport

open Idealize.ShloMosaic Idealize.ShloMosaic.ValueIdx

/-- An array of extended reals with two axes of the given extents. -/
abbrev Arr2 (a b : Nat) : Type := (⟨2, ![a, b]⟩ : Shape).Idx → EReal
/-- An array of extended reals with one axis of the given extent. -/
abbrev Arr1 (a : Nat) : Type := (⟨1, ![a]⟩ : Shape).Idx → EReal

/-- Row `k` of the first block of the 264 rows of the weight matrix: the rows that meet the shared vector `g`. -/
abbrev rowG (k : Fin 128) : Fin 264 := ⟨k.val, by omega⟩
/-- Row `128 + k`: the rows that meet the node's own entries. -/
abbrev rowX (k : Fin 128) : Fin 264 := ⟨128 + k.val, by omega⟩
/-- Row `256 + k`: the rows that meet the shared vector `s`. -/
abbrev rowS (k : Fin 8) : Fin 264 := ⟨256 + k.val, by omega⟩

/-- What the two shared blocks and the bias contribute to hidden unit `j`, the same for every node. -/
def shared (g : Arr2 1 128) (s : Arr2 1 8) (W : Arr2 264 128) (b₁ : Arr1 128) (j : Fin 128) : EReal :=
  ((∑ k : Fin 128, g (ix2 0 k) * W (ix2 (rowG k) j)) + (∑ k : Fin 8, s (ix2 0 k) * W (ix2 (rowS k) j))) + b₁ (ix1 j)

/-- Hidden unit `j` of node `n` before the positive part, the three blocks of the row in their order. -/
def pre (x : Arr2 400000 128) (g : Arr2 1 128) (s : Arr2 1 8) (W : Arr2 264 128) (b₁ : Arr1 128)
    (n : Fin 400000) (j : Fin 128) : EReal :=
  ((∑ k : Fin 128, g (ix2 0 k) * W (ix2 (rowG k) j)) + (∑ k : Fin 128, x (ix2 n k) * W (ix2 (rowX k) j))
    + (∑ k : Fin 8, s (ix2 0 k) * W (ix2 (rowS k) j))) + b₁ (ix1 j)

/-- The score of every node, as a row of 400000 entries. -/
def score (x : Arr2 400000 128) (g : Arr2 1 128) (s : Arr2 1 8) (W : Arr2 264 128) (b₁ : Arr1 128)
    (w₂ : Arr2 128 1) (b₂ : Arr1 1) : Arr2 1 400000 := fun i =>
  (∑ j : Fin 128, max (pre x g s W b₁ (i 1) j) 0 * w₂ (ix2 j 0)) + b₂ (ix1 0)

/-- The score of row `r` of a block of 16000 nodes, from the node block `xb`, the square matrix `w` that meets it, the
    folded row `c`, the second layer's weights laid as a row `w₂row` and its bias as a 1 × 1 array. -/
def blockScore (xb : Arr2 16000 128) (w : Arr2 128 128) (c : Arr2 1 128) (w₂row : Arr2 1 128) (b : Arr2 1 1)
    (r : Fin 16000) : EReal :=
  (∑ j : Fin 128, w₂row (ix2 0 j) * max ((∑ k : Fin 128, xb (ix2 r k) * w (ix2 k j)) + c (ix2 0 j)) 0) + b (ix2 0 0)

/-- The folded computation is the score: when the block's row `r` is node `n`, the square matrix is rows 128 to 255 of
    `W`, the folded row is `shared`, and the second layer's operands are `w₂` and `b₂` re-laid.  Regrouping a sum of
    three terms and a bias, and exchanging two factors. -/
theorem blockScore_eq_score (x : Arr2 400000 128) (g : Arr2 1 128) (s : Arr2 1 8) (W : Arr2 264 128) (b₁ : Arr1 128)
    (w₂ : Arr2 128 1) (b₂ : Arr1 1)
    (xb : Arr2 16000 128) (w : Arr2 128 128) (c : Arr2 1 128) (w₂row : Arr2 1 128) (b : Arr2 1 1)
    (r : Fin 16000) (n : Fin 400000)
    (hx : ∀ k : Fin 128, xb (ix2 r k) = x (ix2 n k))
    (hw : ∀ k j : Fin 128, w (ix2 k j) = W (ix2 (rowX k) j))
    (hc : ∀ j : Fin 128, c (ix2 0 j) = shared g s W b₁ j)
    (hw₂ : ∀ j : Fin 128, w₂row (ix2 0 j) = w₂ (ix2 j 0))
    (hb : b (ix2 0 0) = b₂ (ix1 0)) :
    blockScore xb w c w₂row b r = score x g s W b₁ w₂ b₂ (ix2 0 n) := by
  unfold blockScore score
  rw [hb]
  refine congrArg (· + b₂ (ix1 0)) (Finset.sum_congr rfl fun j _ => ?_)
  rw [hw₂, hc, mul_comm]
  refine congrArg (fun v => max v 0 * w₂ (ix2 j 0)) ?_
  unfold shared pre
  rw [Finset.sum_congr rfl fun k _ => by rw [hx k, hw k j]]
  show _ = ((_ + ∑ k : Fin 128, x (ix2 n k) * W (ix2 (rowX k) j)) + _) + _
  abel

end Cert.Teleport

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.BlockPayload.lean ====
/-
  The one value the kernel body stores, read at a column, is the block score of the specification.

  The body takes a block `xb` of 16000 rows of 128 entries, a square matrix `w`, a row `c` of 128 entries, a row
  `w₂` of 128 entries and a 1 × 1 array `b`, and computes in two steps.  The hidden layer is the product `xb · w`
  with the row `c` added to every row and the positive part taken entry by entry:

      hidden p q = max ((∑ k < 128, xb p k · w k q) + c q) 0 .

  The output is the row `w₂` contracted with every row of the hidden layer — a product with the transpose, so entry
  `r` of the one output row meets row `r` of the hidden layer — with the scalar `b` added to every entry:

      out r = (∑ j < 128, w₂ j · hidden r j) + b .

  Over the extended reals a change of float format is the identity, a reshape of a shape to itself is the identity, and
  a product into the zero accumulator is the plain sum of products; so `out r` is, term for term, `blockScore`.
-/
import proofs.«143282_j32255204393220_2_alg».proof.Proof.Gen.KernelIdeal.Skeleton
import proofs.«143282_j32255204393220_2_alg».proof.Proof.Spec
import proofs.«143282_j32255204393220_2_alg».proof.Proof.LibPlainDot
import proofs.«143282_j32255204393220_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

namespace Cert.Teleport.Body

open Idealize.ShloMosaic Idealize.ShloMosaic.ValueIdx
open Cert.KernelIdeal Cert.KernelIdeal.Gen

/-- The first product, a 16000 × 128 block by a 128 × 128 matrix into the zero accumulator, at `(p, q)`: the sum over
    the shared axis of the row's entries times the column's. -/
theorem hiddenDot_apply (a : FVec Ideal S16000x128 .bf16) (w : FVec Ideal S128x128 .bf16) (p : Fin 16000) (q : Fin 128) :
    matmul dot_S16000x128_S128x128_S16000x128_1_0_0_1_n_n none a w (constant (F := Ideal) S16000x128 .f32 0x00000000#32)
        (ix2 p q)
      = ∑ k : Fin 128, a (ix2 p k) * w (ix2 k q) :=
  PlainDot.matmul_zero_apply (M := 16000) (K := 128) (N := 128) dot_S16000x128_S128x128_S16000x128_1_0_0_1_n_n rfl none
    a w p q

/-- The second product, a 1 × 128 row against the rows of a 16000 × 128 array (contracted on its last axis) into the
    zero accumulator, at column `r`: the row contracted with row `r` of the array. -/
theorem outDot_apply (u : FVec Ideal S1x128 .bf16) (h : FVec Ideal S16000x128 .bf16) (r : Fin 16000) :
    matmul dot_S1x128_S16000x128_S1x16000_1_1_0_0_n_n none u h (constant (F := Ideal) S1x16000 .f32 0x00000000#32)
        (ix2 0 r)
      = ∑ j : Fin 128, u (ix2 0 j) * h (ix2 r j) :=
  TransposedDot.matmul_zero_apply (M := 1) (K := 128) (N := 16000) dot_S1x128_S16000x128_S1x16000_1_1_0_0_n_n rfl none
    u h 0 r

/-- A 1 × 128 row spread over 16000 rows reads, at `(p, q)`, the row's entry `q`. -/
theorem rowSpread_apply (c : FVec Ideal S1x128 .f32) (p : Fin 16000) (q : Fin 128) :
    broadcastTo S16000x128 c broadcasts_S1x128_S16000x128 (ix2 p q) = c (ix2 0 q) :=
  broadcastTo_1b_ab_apply (a := 16000) (b := 128) c broadcasts_S1x128_S16000x128 p q

/-- A 1 × 1 array spread along 16000 columns reads its one entry everywhere. -/
theorem scalarSpread_apply (b : FVec Ideal S1x1 .f32) (r : Fin 16000) :
    broadcastTo S1x16000 b broadcasts_S1x1_S1x16000 (ix2 0 r) = b (ix2 0 0) := by
  refine broadcastTo_apply b broadcasts_S1x1_S1x16000 (ix2 0 r) (ix2 0 0) fun ax => ?_
  match ax with
  | ⟨0, _⟩ => rfl
  | ⟨1, _⟩ => rfl

/-- The hidden layer at `(p, q)`: the first product plus the spread row, then the positive part.  The operand of the
    product is the block after a change of format (the identity here) and the matrix after a reshape to its own shape
    (the identity); the zero the maximum is taken against is the zero word. -/
theorem hidden_apply (v0 : FVec Ideal S16000x128 .f32) (v2 : FVec Ideal S128x128 .bf16) (v4 : FVec Ideal S1x128 .f32)
    (p : Fin 16000) (q : Fin 128) :
    maximumf
        (addf
          (matmul dot_S16000x128_S128x128_S16000x128_1_0_0_1_n_n none (truncf .bf16 v0 bitsLt_bf16_f32)
            (shapeCast S128x128 v2 shapeCasts_S128x128_S128x128) (constant (F := Ideal) S16000x128 .f32 0x00000000#32))
          (broadcastTo S16000x128 (shapeCast S1x128 v4 shapeCasts_S1x128_S1x128) broadcasts_S1x128_S16000x128))
        (broadcast S16000x128 (Scalar.ofBits (F := Ideal) .f32 0x00000000#32)) (ix2 p q)
      = max ((∑ k : Fin 128, v0 (ix2 p k) * v2 (ix2 k q)) + v4 (ix2 0 q)) 0 := by
  refine (maximumf_apply _ _ _).trans (congrArg₂ (fun x y : EReal => max x y) ?_ ?_)
  · refine (addf_apply _ _ _).trans (congrArg₂ (fun x y : EReal => x + y) ?_ ?_)
    · refine (hiddenDot_apply _ _ p q).trans (Finset.sum_congr rfl fun k _ => ?_)
      exact congrArg (fun y : EReal => v0 (ix2 p k) * y) (congrFun (shapeCast_self v2 shapeCasts_S128x128_S128x128) (ix2 k q))
    · exact (rowSpread_apply _ p q).trans (congrFun (shapeCast_self v4 shapeCasts_S1x128_S1x128) (ix2 0 q))
  · exact Ideal.ofBits_zero_f32

/-- The stored row at column `r`: the second layer's row contracted with row `r` of the hidden layer, plus the
    scalar.  It is the specification's `blockScore`, term for term. -/
theorem k0_pay1_apply (v0 : Vec Ideal S16000x128 .f32) (v2 : Vec Ideal S128x128 .bf16) (v4 : Vec Ideal S1x128 .f32)
    (v12 : Vec Ideal S1x128 .bf16) (v14 : Vec Ideal S1x1 .f32) (r : Fin 16000) :
    Cert.KernelIdeal.Gen.k0_pay1 (F := Ideal) v0 v2 v4 v12 v14 (ValueIdx.ix2 0 r)
      = Cert.Teleport.blockScore v0 v2 v4 v12 v14 r := by
  unfold Cert.KernelIdeal.Gen.k0_pay1 Cert.Teleport.blockScore
  refine (addf_apply _ _ _).trans (congrArg₂ (fun x y : EReal => x + y) ?_ ?_)
  · refine (outDot_apply _ _ r).trans (Finset.sum_congr rfl fun j _ => ?_)
    refine congrArg₂ (fun x y : EReal => x * y)
      (congrFun (shapeCast_self (v12 : FVec Ideal S1x128 .bf16) shapeCasts_S1x128_S1x128) (ix2 0 j)) ?_
    exact hidden_apply v0 v2 v4 r j
  · exact (scalarSpread_apply _ r).trans
      (congrFun (shapeCast_self (v14 : FVec Ideal S1x1 .f32) shapeCasts_S1x1_S1x1) (ix2 0 0))

end Cert.Teleport.Body

end
-- ==== Proof.FoldedOperands.lean ====
/-
  The four arrays the host prepares for the kernel, each read at an index, over the extended reals.

  The weight matrix W has 264 rows and 128 columns, in three row blocks: rows 0..127 meet the shared vector g,
  rows 128..255 meet a node's own entries, rows 256..263 meet the shared vector s.

  (1) The folded row.  The host multiplies g by the first block and s by the third block, adds the two products and
      then the first layer's bias b₁ laid along the columns.  At column j this is
          ((∑ k < 128, g k · W k j) + (∑ k < 8, s k · W (256 + k) j)) + b₁ j,
      the contribution to hidden unit j that does not depend on the node.
  (2) The node block's weights: the middle block of W, changed to a narrower float format.  Over the extended
      reals a change of format is the identity, so entry (k, j) is W (128 + k) j.
  (3) The second layer's weights w₂, a column of 128 entries, transposed to a row and changed of format:
      entry (0, j) of the row is entry (j, 0) of the column.
  (4) The second layer's bias b₂, one entry, re-laid as a 1 × 1 array: its one entry is b₂'s one entry.

  Each product is a plain matrix product, so its entry is the sum over the contracted coordinate; a slice at row
  offset o reads row o + p; a transposition exchanges the two coordinates; a re-laying keeps the row-major position.
  Nothing is regrouped, so no entry needs to be finite.
-/
import proofs.«143282_j32255204393220_2_alg».proof.Proof.Gen.KernelIdeal
import proofs.«143282_j32255204393220_2_alg».proof.Proof.Spec
import proofs.«143282_j32255204393220_2_alg».proof.Proof.LibPlainDot
import Idealize.ShloMosaic.Lib.Pipeline.Value
import Idealize.ShloMosaic.Lib.ValueIdx
import Idealize.ShloMosaic.PureOps.Ideal.Laws

noncomputable section

namespace Cert.Teleport.Operands

open Cert.KernelIdeal Cert.KernelIdeal.Gen Idealize.ShloMosaic Idealize.ShloMosaic.ValueIdx

/-- The first row block of W read at (k, j): row k of W. -/
theorem slice_rowG (W : (⟨S264x128, .f32⟩ : BufTy).Contents (Elt Ideal)) (k j : Fin 128) :
    extractStridedSlice S128x128 ![0, 0] W slices_S264x128_S128x128_0_0 (ix2 k j) = W (ix2 (rowG k) j) :=
  extractStridedSlice_apply ![0, 0] W slices_S264x128_S128x128_0_0 (ix2 k j) (ix2 (rowG k) j) (fun a => match a with
    | ⟨0, _⟩ => by show k.val = 0 + k.val; omega
    | ⟨1, _⟩ => by show j.val = 0 + j.val; omega)

/-- The middle row block of W read at (k, j): row 128 + k of W. -/
theorem slice_rowX (W : (⟨S264x128, .f32⟩ : BufTy).Contents (Elt Ideal)) (k j : Fin 128) :
    extractStridedSlice S128x128 ![128, 0] W slices_S264x128_S128x128_128_0 (ix2 k j) = W (ix2 (rowX k) j) :=
  extractStridedSlice_apply ![128, 0] W slices_S264x128_S128x128_128_0 (ix2 k j) (ix2 (rowX k) j) (fun a => match a with
    | ⟨0, _⟩ => by show 128 + k.val = 128 + k.val; rfl
    | ⟨1, _⟩ => by show j.val = 0 + j.val; omega)

/-- The last row block of W read at (k, j): row 256 + k of W. -/
theorem slice_rowS (W : (⟨S264x128, .f32⟩ : BufTy).Contents (Elt Ideal)) (k : Fin 8) (j : Fin 128) :
    extractStridedSlice S8x128 ![256, 0] W slices_S264x128_S8x128_256_0 (ix2 k j) = W (ix2 (rowS k) j) :=
  extractStridedSlice_apply ![256, 0] W slices_S264x128_S8x128_256_0 (ix2 k j) (ix2 (rowS k) j) (fun a => match a with
    | ⟨0, _⟩ => by show 256 + k.val = 256 + k.val; rfl
    | ⟨1, _⟩ => by show j.val = 0 + j.val; omega)

/-- The bias laid along the columns of a one-row array, read at (0, j): entry j of the bias. -/
theorem bias_row (b₁ : (⟨S128, .f32⟩ : BufTy).Contents (Elt Ideal)) (j : Fin 128) :
    broadcastInDim S1x128 ![1] bcast_S128_S1x128_1 b₁ (ix2 0 j) = b₁ (ix1 j) :=
  broadcastInDim_apply _ bcast_S128_S1x128_1 b₁ (ix2 0 j) (ix1 j) (fun a => match a with
    | ⟨0, _⟩ => by show j.val = if (128 : Nat) = 1 then 0 else j.val; rw [if_neg (by decide)])

/-- (1) The folded row at column j is what the two shared blocks and the bias contribute to hidden unit j. -/
theorem folded_row (g : (⟨S1x128, .f32⟩ : BufTy).Contents (Elt Ideal)) (s : (⟨S1x8, .f32⟩ : BufTy).Contents (Elt Ideal))
    (W : (⟨S264x128, .f32⟩ : BufTy).Contents (Elt Ideal)) (b₁ : (⟨S128, .f32⟩ : BufTy).Contents (Elt Ideal)) (j : Fin 128) :
    addf (F := Ideal) (addf (F := Ideal) (Host.dotGeneral (F := Ideal) (φ₁ := .f32) (φ₂ := .f32) dot_S1x128_S128x128_S1x128_1_0_0_1_n_n none g
                  (extractStridedSlice S128x128 ![0, 0] W slices_S264x128_S128x128_0_0))
               (Host.dotGeneral (F := Ideal) (φ₁ := .f32) (φ₂ := .f32) dot_S1x8_S8x128_S1x128_1_0_0_1_n_n none s
                  (extractStridedSlice S8x128 ![256, 0] W slices_S264x128_S8x128_256_0)))
         (broadcastInDim S1x128 ![1] bcast_S128_S1x128_1 b₁) (ix2 0 j)
      = Cert.Teleport.shared g s W b₁ j := by
  rw [addf_apply, addf_apply, bias_row]
  simp only [Host.dotGeneral]
  rw [PlainDot.dotGeneral_apply dot_S1x128_S128x128_S1x128_1_0_0_1_n_n rfl,
      PlainDot.dotGeneral_apply dot_S1x8_S8x128_S1x128_1_0_0_1_n_n rfl]
  unfold Cert.Teleport.shared
  refine congrArg (· + b₁ (ix1 j)) (congrArg₂ (· + ·)
    (Finset.sum_congr rfl fun k _ => ?_) (Finset.sum_congr rfl fun k _ => ?_))
  · rw [slice_rowG]
  · rw [slice_rowS]

/-- (2) The node block's weights at (k, j): row 128 + k of W, the change of format being the identity. -/
theorem node_weights (W : (⟨S264x128, .f32⟩ : BufTy).Contents (Elt Ideal)) (k j : Fin 128) :
    (truncf (F := Ideal) .bf16 (extractStridedSlice S128x128 ![128, 0] W slices_S264x128_S128x128_128_0) bitsLt_bf16_f32) (ix2 k j)
      = W (ix2 (rowX k) j) := by
  rw [truncf_apply, slice_rowX]

/-- (3) The second layer's weights laid as a row: entry (0, j) of the row is entry (j, 0) of the column. -/
theorem second_weights_row (w₂ : (⟨S128x1, .f32⟩ : BufTy).Contents (Elt Ideal)) (j : Fin 128) :
    (truncf (F := Ideal) .bf16 (transpose S1x128 [1, 0] w₂ transposes_S128x1_S1x128_1_0) bitsLt_bf16_f32) (ix2 0 j)
      = w₂ (ix2 j 0) := by
  rw [truncf_apply]
  exact transpose_apply [1, 0] w₂ transposes_S128x1_S1x128_1_0 (ix2 0 j) (ix2 j 0) (fun b => match b with
    | ⟨0, _⟩ => rfl
    | ⟨1, _⟩ => rfl)

/-- (4) The second layer's bias re-laid as a 1 × 1 array: its one entry is the bias's one entry (both sit at
    row-major position 0). -/
theorem second_bias_cell (b₂ : (⟨S1, .f32⟩ : BufTy).Contents (Elt Ideal)) :
    shapeCast S1x1 b₂ shapeCasts_S1_S1x1 (ix2 0 0) = b₂ (ix1 0) :=
  shapeCast_apply b₂ shapeCasts_S1_S1x1 (ix2 0 0) (ix1 0) (by decide)

end Cert.Teleport.Operands

end
-- ==== Proof.IdealScores.lean ====
/-
  The row of scores the launch leaves, from the program's arguments, over the extended reals.

  The output array is a row of 400000 scores written back in 25 blocks of 16000 columns; point `t` reads rows
  `16000·t … 16000·t + 15999` of the node table and the four shared operands, which the host computed from the arguments before
  the launch.  The body's stored value at column `r` is the folded form of the score (the payload read at an index); with the
  operands read at an index as entries of the arguments, and the sums regrouped — which needs no finiteness —, it is the
  score of node `16000·t + r` (`block_scores_at`).  So what point `t` writes back is block `t` of the row of all scores
  (`flushed_scores`); every column lies in exactly the block of point `n / 16000` (`every_node_covered`); hence after the
  launch the array is the row of all scores (`final_scores`).
-/
import proofs.«143282_j32255204393220_2_alg».proof.Proof.IdealFrame
import proofs.«143282_j32255204393220_2_alg».proof.Proof.IdealLaunched
import proofs.«143282_j32255204393220_2_alg».proof.Proof.BlockPayload
import proofs.«143282_j32255204393220_2_alg».proof.Proof.FoldedOperands

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The offset of a whole-buffer rectangle is zero on both axes. -/
theorem hz : (![0, 0] : Fin 2 → Nat) = fun _ => 0 := funext fun a => by fin_cases a <;> rfl

/-- The block each window sees at grid point `t`, decided over the 25 points: the node table's block moves down the rows with `t`, the output's
    block moves along the columns with `t`, and the four shared operands always show their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- There are 25 grid points. -/
theorem point_lt (t : Fin cfg0.N) : t.val < 25 := by
  have h : t.val < grid0.N := t.isLt
  have e := N_0
  omega

/-- Row `r` of the block at point `t` is node `16000 · t + r`. -/
def node (t : Fin cfg0.N) (r : Fin 16000) : Fin 400000 := ⟨t.val * 16000 + r.val, by have := point_lt t; have := r.isLt; omega⟩

/-- The node block at point `t`, read at row `r`: the node table's row `16000 · t + r` (no host operation writes the table). -/
theorem nodes_block (c : Dev nD) (t : Fin cfg0.N) (r : Fin 16000) (k : Fin 128) :
    iblk m c 0 t (ix2 r k) = m ((c : Thread nD τ).loc main_arg0) (ix2 (node t r) k) := by
  unfold iblk
  show V m c main_arg0 (((cfg0.win 0).blk t).view.emb (ix2 r k)) = _
  rw [V_kept m c main_arg0 (by decide)]
  obtain ⟨e0, e1, -⟩ := idx_facts t
  refine congrArg _ (funext fun a => Fin.ext ?_)
  match a with
  | ⟨0, _⟩ => show win0_0.index t (0 : Fin 2) * 16000 + 1 * r.val = t.val * 16000 + r.val; omega
  | ⟨1, _⟩ => show win0_0.index t (1 : Fin 2) * 128 + 1 * k.val = k.val; omega

/-- The square operand's block is the whole array: rows 128 to 255 of the first layer's weights. -/
theorem square_block (c : Dev nD) (t : Fin cfg0.N) (k j : Fin 128) :
    iblk m c 1 t (ix2 k j) = (m ((c : Thread nD τ).loc main_arg16)) (ix2 (Cert.Teleport.rowX k) j) := by
  unfold iblk
  show V m c main_v33 (((cfg0.win 1).blk t).view.emb (ix2 k j)) = _
  obtain ⟨-, -, e0, e1, -⟩ := idx_facts t
  have e : ((cfg0.win 1).blk t).view.emb (ix2 k j) = ix2 k j := funext fun a => Fin.ext (by
    match a with
    | ⟨0, _⟩ => show win0_1.index t (0 : Fin 2) * 128 + 1 * k.val = k.val; omega
    | ⟨1, _⟩ => show win0_1.index t (1 : Fin 2) * 128 + 1 * j.val = j.val; omega)
  rw [e, V_square]
  exact Cert.Teleport.Operands.node_weights _ k j

/-- The folded bias row's block is the whole array: the two shared blocks' contribution plus the bias. -/
theorem folded_block (c : Dev nD) (t : Fin cfg0.N) (j : Fin 128) :
    iblk m c 2 t (ix2 0 j) = Cert.Teleport.shared (m ((c : Thread nD τ).loc main_arg1)) (m ((c : Thread nD τ).loc main_arg2)) (m ((c : Thread nD τ).loc main_arg16)) (m ((c : Thread nD τ).loc main_arg17)) j := by
  unfold iblk
  show V m c main_v32 (((cfg0.win 2).blk t).view.emb (ix2 0 j)) = _
  obtain ⟨-, -, -, -, e0, e1, -⟩ := idx_facts t
  have e : ((cfg0.win 2).blk t).view.emb (ix2 0 j) = ix2 0 j := funext fun a => Fin.ext (by
    match a with
    | ⟨0, _⟩ => show win0_2.index t (0 : Fin 2) * 1 + 1 * 0 = 0; omega
    | ⟨1, _⟩ => show win0_2.index t (1 : Fin 2) * 128 + 1 * j.val = j.val; omega)
  rw [e, V_folded]
  exact Cert.Teleport.Operands.folded_row _ _ _ _ j

/-- The second layer's weights, laid as a row: entry `(0, j)` is entry `(j, 0)` of the column. -/
theorem row_block (c : Dev nD) (t : Fin cfg0.N) (j : Fin 128) :
    iblk m c 3 t (ix2 0 j) = (m ((c : Thread nD τ).loc main_arg18)) (ix2 j 0) := by
  unfold iblk
  show V m c main_v35 (((cfg0.win 3).blk t).view.emb (ix2 0 j)) = _
  obtain ⟨-, -, -, -, -, -, e0, e1, -⟩ := idx_facts t
  have e : ((cfg0.win 3).blk t).view.emb (ix2 0 j) = ix2 0 j := funext fun a => Fin.ext (by
    match a with
    | ⟨0, _⟩ => show win0_3.index t (0 : Fin 2) * 1 + 1 * 0 = 0; omega
    | ⟨1, _⟩ => show win0_3.index t (1 : Fin 2) * 128 + 1 * j.val = j.val; omega)
  rw [e, V_row]
  exact Cert.Teleport.Operands.second_weights_row _ j

/-- The second layer's bias, as a 1 × 1 array. -/
theorem one_block (c : Dev nD) (t : Fin cfg0.N) :
    iblk m c 4 t (ix2 0 0) = (m ((c : Thread nD τ).loc main_arg19)) (ix1 0) := by
  unfold iblk
  show V m c main_v36 (((cfg0.win 4).blk t).view.emb (ix2 0 0)) = _
  obtain ⟨-, -, -, -, -, -, -, -, e0, e1, -⟩ := idx_facts t
  have e : ((cfg0.win 4).blk t).view.emb (ix2 0 0) = ix2 0 0 := funext fun a => Fin.ext (by
    match a with
    | ⟨0, _⟩ => show win0_4.index t (0 : Fin 2) * 1 + 1 * 0 = 0; omega
    | ⟨1, _⟩ => show win0_4.index t (1 : Fin 2) * 1 + 1 * 0 = 0; omega)
  rw [e, V_one]
  exact Cert.Teleport.Operands.second_bias_cell _

/-- The scores of all nodes, from the program's arguments. -/
def scoreRow (c : Dev nD) : Cert.Teleport.Arr2 1 400000 :=
  Cert.Teleport.score (m ((c : Thread nD τ).loc main_arg0)) (m ((c : Thread nD τ).loc main_arg1)) (m ((c : Thread nD τ).loc main_arg2)) (m ((c : Thread nD τ).loc main_arg16)) (m ((c : Thread nD τ).loc main_arg17)) (m ((c : Thread nD τ).loc main_arg18)) (m ((c : Thread nD τ).loc main_arg19))

/-- ONE BLOCK: what the body stores at column `r` of the output block at point `t` is the score of node `16000 · t + r`. -/
theorem block_scores_at (c : Dev nD) (t : Fin cfg0.N) (r : Fin 16000) :
    k0_pay1 (F := Ideal) (iblk m c 0 t) (iblk m c 1 t) (iblk m c 2 t) (iblk m c 3 t) (iblk m c 4 t) (ix2 0 r) = scoreRow m c (ix2 0 (node t r)) := by
  rw [Cert.Teleport.Body.k0_pay1_apply]
  exact Cert.Teleport.blockScore_eq_score _ _ _ _ _ _ _ _ _ _ _ _ r (node t r) (nodes_block m c t r) (square_block m c t) (folded_block m c t)
    (row_block m c t) (one_block m c t)

/-- What point `t` writes back is block `t` of the row of scores: the one store covers the buffer, each load reads a whole buffer, and column
    `r` of the output's block at `t` is column `16000 · t + r` of the row. -/
theorem flushed_scores (c : Dev nD) (t : Fin cfg0.N) :
    (dats m 0 c).flushed 5 t = ((cfg0.win 5).blk t).view.read (Elt Ideal) (scoreRow m c) := by
  show (cfg0.win 5).cut (grid0.coords t) ((dats m 0 c).after 5 t) = _
  rw [after_5]
  unfold blockOut
  rw [View.canon_unit_zero hz]
  simp only [View.ld_unit_zero (S := S16000x128) hz, View.ld_unit_zero (S := S128x128) hz, View.ld_unit_zero (S := S1x128) hz,
    View.ld_unit_zero (S := S1x1) hz]
  funext j
  obtain ⟨r, rfl⟩ : ∃ r : Fin 16000, j = ix2 (0 : Fin 1) r := by
    have hlt : (j 0).val < 1 := (j 0).isLt
    have h0 : @Eq (Fin 1) (j 0) (0 : Fin 1) := Fin.ext (by show (j 0).val = 0; omega)
    exact ⟨j 1, (eq_ix2 j).trans (congrArg (fun a : Fin 1 => ix2 a (j 1 : Fin 16000)) h0)⟩
  refine (block_scores_at m c t r).trans ?_
  show scoreRow m c (ix2 0 (node t r)) = scoreRow m c (((cfg0.win 5).blk t).view.emb (ix2 0 r))
  obtain ⟨-, -, -, -, -, -, -, -, -, -, e0, e1⟩ := idx_facts t
  refine congrArg _ (funext fun a => Fin.ext ?_)
  match a with
  | ⟨0, _⟩ => show 0 = win0_5.index t (0 : Fin 2) * 1 + 1 * 0; omega
  | ⟨1, _⟩ => show t.val * 16000 + r.val = win0_5.index t (1 : Fin 2) * 16000 + 1 * r.val; omega

/-- An index of the row is in point `t`'s block when each coordinate is in the block's range on its axis. -/
theorem mem_blk (t : Fin cfg0.N) (i : S1x400000.Idx) :
    i ∈ ((cfg0.win 5).blk t).view.set ↔ ∀ a : Fin 2, win0_5.index t a * S1x16000.size a ≤ (i a).val ∧ (i a).val < win0_5.index t a * S1x16000.size a + S1x16000.size a := by
  show i ∈ ((View.whole main_v37).slice (win0_5.rect t)).set ↔ _
  rw [View.set_slice_whole, Rect.mem_set_unit]
  exact Iff.rfl

/-- Every node is in some point's block: node `n` in that of point `n / 16000`. -/
theorem every_node_covered (i : S1x400000.Idx) :
    ∃ t : Fin cfg0.N, (cfg0.win 5).flush t = true ∧ i ∈ ((cfg0.win 5).blk t).view.set := by
  have hi0 : (i 0).val < 1 := (i 0).isLt
  have hi1 : (i 1).val < 400000 := (i 1).isLt
  have hN : cfg0.N = 25 := N_0
  let t : Fin cfg0.N := ⟨(i 1).val / 16000, by rw [hN]; omega⟩
  have ht : t.val = (i 1).val / 16000 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 16000 ≤ (i 1).val ∧ (i 1).val < win0_5.index t (1 : Fin 2) * 16000 + 16000; omega

/-- THE ROW after the launch: the score of every node. -/
theorem final_scores (c : Dev nD) : (dats m 0 c).arrAt 5 cfg0.N = scoreRow m c :=
  (dats m 0 c).arrAt_eq_of_cover 5 (scoreRow m c) (fun t _ => flushed_scores m c t) every_node_covered

end Cert.KernelIdeal.Around

end
-- ==== Proof.IdealResult.lean ====
/-
  The program's result, over the extended reals.

  After the launch one host operation lays four arrays end to end along the columns: the three small heads (4, 5 and 30
  entries, each computed by the host before the launch from row 0 of the node table and the shared vectors) and the row
  of 400000 scores the launch wrote.  The heads are buffers the launch bypasses, so that operation finds them as they were
  when the launch began; the row it finds as the launch left it, which is the score of every node.  Hence the result
  (`result`), and the run of the whole program re-stated with it (`run`): it terminates without a fault, the result buffer
  holds `result`, and the twenty arguments are as they were.
-/
import proofs.«143282_j32255204393220_2_alg».proof.Proof.IdealScores

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-- The three heads as the launch found them and the row of scores, end to end. -/
def result (c : Dev nD) : Buf (Elt Ideal) ((c.tc : Thread nD τ).loc main_v38) :=
  concatenate S1x400039 1 [⟨S1x4, V m c main_v8⟩, ⟨S1x5, V m c main_v15⟩, ⟨S1x30, V m c main_v24⟩, ⟨S1x400000, scoreRow m c⟩]
    concatenates_S1x4_S1x5_S1x30_S1x400000_S1x400039_d1

/-- Four arrays laid end to end are equal when the four arrays are. -/
theorem joined_congr (a a' : S1x4.Idx → EReal) (b b' : S1x5.Idx → EReal) (e e' : S1x30.Idx → EReal) (d d' : S1x400000.Idx → EReal)
    (h : Shape.Concatenates [S1x4, S1x5, S1x30, S1x400000] S1x400039 1) (ha : a = a') (hb : b = b') (he : e = e') (hd : d = d') :
    concatenate S1x400039 1 [⟨S1x4, a⟩, ⟨S1x5, b⟩, ⟨S1x30, e⟩, ⟨S1x400000, d⟩] h
      = concatenate S1x400039 1 [⟨S1x4, a'⟩, ⟨S1x5, b'⟩, ⟨S1x30, e'⟩, ⟨S1x400000, d'⟩] h := by
  subst ha hb he hd; rfl

/-- The operation after the launch reads the heads where the launch bypassed them and the row where the launch left it. -/
theorem result_after_launch (c : Dev nD) :
    Pipeline.afterTail₀ cfgs (dats m) 0 (V0 m) [hostOps1] c main_v38 = result m c := by
  unfold Pipeline.afterTail₀ result
  show StableHlo.after hostOps1 _ (Proc.devRef .tc main_v38) = _
  after_results
  refine joined_congr _ _ _ _ _ _ _ _ _ ?_ ?_ ?_ ?_
  · exact Pipeline.withArrays_of_ne spec0 c (V0 m c) _ main_v8 (by decide)
  · exact Pipeline.withArrays_of_ne spec0 c (V0 m c) _ main_v15 (by decide)
  · exact Pipeline.withArrays_of_ne spec0 c (V0 m c) _ main_v24 (by decide)
  · exact (Pipeline.withArrays_arr spec0 launch0.win.arr_inj c _ _ 5).trans (final_scores m c)

/-- The run of the program at exact arithmetic, with its result named. -/
theorem run : θ_run defs (onTc (τ := τ) (main (F := Ideal))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨((h c).2 main_v38 (Pipeline.mem_restRefs_of main_v38 (by decide) (by decide))).trans (result_after_launch m c),
      ((h c).1 0).trans (((dats m 0 c).arrAt_in 0 rfl _).trans ((A_eq m c 0).trans (V_kept m c main_arg0 (by decide)))),
      ((h c).2 main_arg1 (Pipeline.mem_restRefs_of main_arg1 (by decide) (by decide))).trans (end_kept m (dats m) c main_arg1 (by decide) (by exact (by decide : ∀ w, Pipeline.arrRef spec0 w ≠ main_arg1)) (by decide)),
      ((h c).2 main_arg2 (Pipeline.mem_restRefs_of main_arg2 (by decide) (by decide))).trans (end_kept m (dats m) c main_arg2 (by decide) (by exact (by decide : ∀ w, Pipeline.arrRef spec0 w ≠ main_arg2)) (by decide)),
      ((h c).2 main_arg3 (Pipeline.mem_restRefs_of main_arg3 (by decide) (by decide))).trans (end_kept m (dats m) c main_arg3 (by decide) (by exact (by decide : ∀ w, Pipeline.arrRef spec0 w ≠ main_arg3)) (by decide)),
      ((h c).2 main_arg4 (Pipeline.mem_restRefs_of main_arg4 (by decide) (by decide))).trans (end_kept m (dats m) c main_arg4 (by decide) (by exact (by decide : ∀ w, Pipeline.arrRef spec0 w ≠ main_arg4)) (by decide)),
      ((h c).2 main_arg5 (Pipeline.mem_restRefs_of main_arg5 (by decide) (by decide))).trans (end_kept m (dats m) c main_arg5 (by decide) (by exact (by decide : ∀ w, Pipeline.arrRef spec0 w ≠ main_arg5)) (by decide)),
      ((h c).2 main_arg6 (Pipeline.mem_restRefs_of main_arg6 (by decide) (by decide))).trans (end_kept m (dats m) c main_arg6 (by decide) (by exact (by decide : ∀ w, Pipeline.arrRef spec0 w ≠ main_arg6)) (by decide)),
      ((h c).2 main_arg7 (Pipeline.mem_restRefs_of main_arg7 (by decide) (by decide))).trans (end_kept m (dats m) c main_arg7 (by decide) (by exact (by decide : ∀ w, Pipeline.arrRef spec0 w ≠ main_arg7)) (by decide)),
      ((h c).2 main_arg8 (Pipeline.mem_restRefs_of main_arg8 (by decide) (by decide))).trans (end_kept m (dats m) c main_arg8 (by decide) (by exact (by decide : ∀ w, Pipeline.arrRef spec0 w ≠ main_arg8)) (by decide)),
      ((h c).2 main_arg9 (Pipeline.mem_restRefs_of main_arg9 (by decide) (by decide))).trans (end_kept m (dats m) c main_arg9 (by decide) (by exact (by decide : ∀ w, Pipeline.arrRef spec0 w ≠ main_arg9)) (by decide)),
      ((h c).2 main_arg10 (Pipeline.mem_restRefs_of main_arg10 (by decide) (by decide))).trans (end_kept m (dats m) c main_arg10 (by decide) (by exact (by decide : ∀ w, Pipeline.arrRef spec0 w ≠ main_arg10)) (by decide)),
      ((h c).2 main_arg11 (Pipeline.mem_restRefs_of main_arg11 (by decide) (by decide))).trans (end_kept m (dats m) c main_arg11 (by decide) (by exact (by decide : ∀ w, Pipeline.arrRef spec0 w ≠ main_arg11)) (by decide)),
      ((h c).2 main_arg12 (Pipeline.mem_restRefs_of main_arg12 (by decide) (by decide))).trans (end_kept m (dats m) c main_arg12 (by decide) (by exact (by decide : ∀ w, Pipeline.arrRef spec0 w ≠ main_arg12)) (by decide)),
      ((h c).2 main_arg13 (Pipeline.mem_restRefs_of main_arg13 (by decide) (by decide))).trans (end_kept m (dats m) c main_arg13 (by decide) (by exact (by decide : ∀ w, Pipeline.arrRef spec0 w ≠ main_arg13)) (by decide)),
      ((h c).2 main_arg14 (Pipeline.mem_restRefs_of main_arg14 (by decide) (by decide))).trans (end_kept m (dats m) c main_arg14 (by decide) (by exact (by decide : ∀ w, Pipeline.arrRef spec0 w ≠ main_arg14)) (by decide)),
      ((h c).2 main_arg15 (Pipeline.mem_restRefs_of main_arg15 (by decide) (by decide))).trans (end_kept m (dats m) c main_arg15 (by decide) (by exact (by decide : ∀ w, Pipeline.arrRef spec0 w ≠ main_arg15)) (by decide)),
      ((h c).2 main_arg16 (Pipeline.mem_restRefs_of main_arg16 (by decide) (by decide))).trans (end_kept m (dats m) c main_arg16 (by decide) (by exact (by decide : ∀ w, Pipeline.arrRef spec0 w ≠ main_arg16)) (by decide)),
      ((h c).2 main_arg17 (Pipeline.mem_restRefs_of main_arg17 (by decide) (by decide))).trans (end_kept m (dats m) c main_arg17 (by decide) (by exact (by decide : ∀ w, Pipeline.arrRef spec0 w ≠ main_arg17)) (by decide)),
      ((h c).2 main_arg18 (Pipeline.mem_restRefs_of main_arg18 (by decide) (by decide))).trans (end_kept m (dats m) c main_arg18 (by decide) (by exact (by decide : ∀ w, Pipeline.arrRef spec0 w ≠ main_arg18)) (by decide)),
      ((h c).2 main_arg19 (Pipeline.mem_restRefs_of main_arg19 (by decide) (by decide))).trans (end_kept m (dats m) c main_arg19 (by decide) (by exact (by decide : ∀ w, Pipeline.arrRef spec0 w ≠ main_arg19)) (by decide))⟩) (run_main m ρ)

end Cert.KernelIdeal.Around

end
-- ==== Proof.RefScore.lean ====
/-
  The reference's score row, read entry by entry, is the specification's score.

  The reference lays, for every node `n`, the row `(g, x n, s)` of 264 entries by joining three arrays along the
  column axis: the shared 128-vector spread over all nodes, the node table, and the shared 8-vector spread over all
  nodes.  Reading the joined array at a column of each of the three blocks gives `g k`, `x n k` and `s k`.  The first
  layer's contraction over the 264 columns then splits, as 264 = 128 + 128 + 8, into the three block sums in their
  order, which is the grouping of `pre`; the bias is added, the maximum is taken against a spread zero word, which is
  the real number 0, the second contraction runs over the 128 hidden units against the column `w₂`, the second bias is
  added, and the final exchange of the two axes turns the column of 400000 scores into a row.  Nothing is regrouped
  beyond the split of one sum over consecutive blocks, so no entry needs to be finite.
-/
import proofs.«143282_j32255204393220_2_alg».proof.Proof.Gen.ReferenceIdeal.Read
import proofs.«143282_j32255204393220_2_alg».proof.Proof.Spec

noncomputable section

namespace Cert.Teleport.Ref

open Cert.ReferenceIdeal Cert.ReferenceIdeal.Read Cert.Teleport Idealize.ShloMosaic Idealize.ShloMosaic.ValueIdx

/-- Columns 0 to 127 of the joined row of node `n` are the shared 128-vector. -/
theorem val_main_v27_rowG (x0 : (⟨S400000x128, .f32⟩ : BufTy).Contents (Elt Ideal))
    (x1 : (⟨S1x128, .f32⟩ : BufTy).Contents (Elt Ideal)) (x2 : (⟨S1x8, .f32⟩ : BufTy).Contents (Elt Ideal))
    (n : Fin 400000) (k : Fin 128) :
    val_main_v27 (F := Ideal) x0 x1 x2 (ix2 n (rowG k)) = x1 (ix2 0 k) := by
  unfold val_main_v27
  rw [concatenate_apply_piece (1 : Fin S400000x264.rank) _ _ (ix2 n (rowG k)) 0 (by show (0 : Nat) < 3; omega) S400000x128
    (val_main_v25 (F := Ideal) x1) rfl rfl 0 rfl (ix2 n k)
    (fun b => match b with
      | ⟨0, _⟩ => fun _ => rfl
      | ⟨1, _⟩ => fun h => absurd rfl h)
    (by show 0 + k.val = k.val; omega)]
  rw [val_main_v25_apply]
  exact congrArg x1 (funext fun a => Fin.ext (by match a with | ⟨0, _⟩ => rfl | ⟨1, _⟩ => rfl))

/-- Columns 128 to 255 of the joined row of node `n` are the node's own entries. -/
theorem val_main_v27_rowX (x0 : (⟨S400000x128, .f32⟩ : BufTy).Contents (Elt Ideal))
    (x1 : (⟨S1x128, .f32⟩ : BufTy).Contents (Elt Ideal)) (x2 : (⟨S1x8, .f32⟩ : BufTy).Contents (Elt Ideal))
    (n : Fin 400000) (k : Fin 128) :
    val_main_v27 (F := Ideal) x0 x1 x2 (ix2 n (rowX k)) = x0 (ix2 n k) := by
  unfold val_main_v27
  exact concatenate_apply_piece (1 : Fin S400000x264.rank) _ _ (ix2 n (rowX k)) 1 (by show (1 : Nat) < 3; omega) S400000x128
    x0 rfl rfl 128 rfl (ix2 n k)
    (fun b => match b with
      | ⟨0, _⟩ => fun _ => rfl
      | ⟨1, _⟩ => fun h => absurd rfl h)
    (by show 128 + k.val = 128 + k.val; rfl)

/-- Columns 256 to 263 of the joined row of node `n` are the shared 8-vector. -/
theorem val_main_v27_rowS (x0 : (⟨S400000x128, .f32⟩ : BufTy).Contents (Elt Ideal))
    (x1 : (⟨S1x128, .f32⟩ : BufTy).Contents (Elt Ideal)) (x2 : (⟨S1x8, .f32⟩ : BufTy).Contents (Elt Ideal))
    (n : Fin 400000) (k : Fin 8) :
    val_main_v27 (F := Ideal) x0 x1 x2 (ix2 n (rowS k)) = x2 (ix2 0 k) := by
  unfold val_main_v27
  rw [concatenate_apply_piece (1 : Fin S400000x264.rank) _ _ (ix2 n (rowS k)) 2 (by show (2 : Nat) < 3; omega) S400000x8
    (val_main_v26 (F := Ideal) x2) rfl rfl 256 rfl (ix2 n k)
    (fun b => match b with
      | ⟨0, _⟩ => fun _ => rfl
      | ⟨1, _⟩ => fun h => absurd rfl h)
    (by show 256 + k.val = 256 + k.val; rfl)]
  rw [val_main_v26_apply]
  exact congrArg x2 (funext fun a => Fin.ext (by match a with | ⟨0, _⟩ => rfl | ⟨1, _⟩ => rfl))

/-- A sum over the 264 rows is the sum over the three row blocks, in their order. -/
theorem sum_rows (f : Fin 264 → EReal) :
    ∑ k, f k = ((∑ k : Fin 128, f (rowG k)) + (∑ k : Fin 128, f (rowX k))) + ∑ k : Fin 8, f (rowS k) := by
  have h1 := Fin.sum_univ_add (a := 256) (b := 8) f
  have h2 := Fin.sum_univ_add (a := 128) (b := 128) (fun i => f (Fin.castAdd 8 i))
  exact h1.trans (congrArg (· + ∑ k : Fin 8, f (rowS k)) h2)

/-- The first layer's product at node `n` and hidden unit `j`, block by block of the joined row. -/
theorem val_main_v28_blocks (x0 : (⟨S400000x128, .f32⟩ : BufTy).Contents (Elt Ideal))
    (x1 : (⟨S1x128, .f32⟩ : BufTy).Contents (Elt Ideal)) (x2 : (⟨S1x8, .f32⟩ : BufTy).Contents (Elt Ideal))
    (x16 : (⟨S264x128, .f32⟩ : BufTy).Contents (Elt Ideal))
    (n : Fin 400000) (j : Fin 128) :
    val_main_v28 (F := Ideal) x0 x1 x2 x16 (ix2 n j)
      = ((∑ k : Fin 128, x1 (ix2 0 k) * x16 (ix2 (rowG k) j)) + (∑ k : Fin 128, x0 (ix2 n k) * x16 (ix2 (rowX k) j)))
        + (∑ k : Fin 8, x2 (ix2 0 k) * x16 (ix2 (rowS k) j)) := by
  have el : ∀ k : Fin 264, lidx_main_v28 (ix2 n j) k = ix2 n k := fun k =>
    funext fun a => Fin.ext (by match a with | ⟨0, _⟩ => rfl | ⟨1, _⟩ => rfl)
  have er : ∀ k : Fin 264, ridx_main_v28 (ix2 n j) k = ix2 k j := fun k =>
    funext fun a => Fin.ext (by match a with | ⟨0, _⟩ => rfl | ⟨1, _⟩ => rfl)
  rw [val_main_v28_apply, Finset.sum_congr rfl fun k _ => by rw [el k, er k],
    sum_rows fun k => val_main_v27 (F := Ideal) x0 x1 x2 (ix2 n k) * x16 (ix2 k j)]
  simp only [val_main_v27_rowG, val_main_v27_rowX, val_main_v27_rowS]

/-- Hidden unit `j` of node `n` before the positive part: the product plus the bias spread over the nodes. -/
theorem val_main_v31_pre (x0 : (⟨S400000x128, .f32⟩ : BufTy).Contents (Elt Ideal))
    (x1 : (⟨S1x128, .f32⟩ : BufTy).Contents (Elt Ideal)) (x2 : (⟨S1x8, .f32⟩ : BufTy).Contents (Elt Ideal))
    (x16 : (⟨S264x128, .f32⟩ : BufTy).Contents (Elt Ideal))
    (x17 : (⟨S128, .f32⟩ : BufTy).Contents (Elt Ideal)) (n : Fin 400000) (j : Fin 128) :
    val_main_v31 (F := Ideal) x0 x1 x2 x16 x17 (ix2 n j) = pre x0 x1 x2 x16 x17 n j := by
  have e : idx_main_v29 (idx_main_v30 (ix2 n j)) = ix1 j :=
    funext fun a => Fin.ext (by match a with | ⟨0, _⟩ => rfl)
  rw [val_main_v31_apply, val_main_v30_apply, val_main_v29_apply, val_main_v28_blocks, e, Ideal.addf_def]
  rfl

/-- The positive part: the maximum against the spread zero word, which is the real number 0. -/
theorem val_main_v32_relu (x0 : (⟨S400000x128, .f32⟩ : BufTy).Contents (Elt Ideal))
    (x1 : (⟨S1x128, .f32⟩ : BufTy).Contents (Elt Ideal)) (x2 : (⟨S1x8, .f32⟩ : BufTy).Contents (Elt Ideal))
    (x16 : (⟨S264x128, .f32⟩ : BufTy).Contents (Elt Ideal))
    (x17 : (⟨S128, .f32⟩ : BufTy).Contents (Elt Ideal)) (n : Fin 400000) (j : Fin 128) :
    val_main_v32 (F := Ideal) x0 x1 x2 x16 x17 (ix2 n j) = max (pre x0 x1 x2 x16 x17 n j) 0 := by
  rw [val_main_v32_apply, val_main_v31_pre, val_main_call3_v0_apply, val_main_call3_cst_apply, Ideal.maximumf_def,
    Ideal.ofBits_def, Ideal.ofBits_zero_f32]

/-- The reference's teleport row is the specification's score. -/
theorem val_main_v37_eq_score (x0 : (⟨S400000x128, .f32⟩ : BufTy).Contents (Elt Ideal))
    (x1 : (⟨S1x128, .f32⟩ : BufTy).Contents (Elt Ideal)) (x2 : (⟨S1x8, .f32⟩ : BufTy).Contents (Elt Ideal))
    (x16 : (⟨S264x128, .f32⟩ : BufTy).Contents (Elt Ideal))
    (x17 : (⟨S128, .f32⟩ : BufTy).Contents (Elt Ideal)) (x18 : (⟨S128x1, .f32⟩ : BufTy).Contents (Elt Ideal))
    (x19 : (⟨S1, .f32⟩ : BufTy).Contents (Elt Ideal)) :
    Cert.ReferenceIdeal.Read.val_main_v37 (F := Ideal) x0 x1 x2 x16 x17 x18 x19
      = Cert.Teleport.score x0 x1 x2 x16 x17 x18 x19 := by
  funext i
  obtain ⟨p, n, rfl⟩ : ∃ (p : Fin 1) (n : Fin 400000), i = ix2 p n := ⟨i 0, i 1, eq_ix2 i⟩
  have hp : p = 0 := Subsingleton.elim _ _
  subst hp
  have e19 : idx_main_v34 (idx_main_v35 (idx_main_v37 (ix2 (0 : Fin 1) n))) = ix1 0 :=
    funext fun a => Fin.ext (by match a with | ⟨0, _⟩ => rfl)
  rw [val_main_v37_apply, val_main_v36_apply, val_main_v33_apply, val_main_v35_apply, val_main_v34_apply, e19,
    Ideal.addf_def]
  unfold score
  refine congrArg (· + x19 (ix1 0)) (Finset.sum_congr rfl fun j _ => ?_)
  have el : lidx_main_v33 (idx_main_v37 (ix2 (0 : Fin 1) n)) j = ix2 n j :=
    funext fun a => Fin.ext (by match a with | ⟨0, _⟩ => rfl | ⟨1, _⟩ => rfl)
  have er : ridx_main_v33 (idx_main_v37 (ix2 (0 : Fin 1) n)) j = ix2 j 0 :=
    funext fun a => Fin.ext (by match a with | ⟨0, _⟩ => rfl | ⟨1, _⟩ => rfl)
  rw [el, er, val_main_v32_relu]

end Cert.Teleport.Ref

end
-- ==== Proof.lean ====
/-
  The certificate's claim.

  Two programs compute, for a table of 400000 nodes with 128 entries each, a row of 400039 numbers: three small heads of
  4, 5 and 30 entries, computed from row 0 of the table and two shared vectors, followed by one score per node.  The
  score of node `n` is a two-layer perceptron of the row `(g, x n, s)` of 264 entries: `(∑ⱼ max (pre n j) 0 · w₂ j) + b₂` with
  `pre n j = (∑ₖ (g, x n, s) k · W k j) + b₁ j`.

  The reference computes exactly that, for all nodes at once.  The kernel folds the part of `pre` that does not depend on
  the node — the blocks of `g` and `s` and the bias — into one row on the host, and streams the table through the
  accelerator in 25 blocks of 16000 nodes, computing for each block `max (x · W[128:256] + folded) 0` contracted with `w₂`.
  Over the extended reals, where a change of float format is the identity, the two are the same function of the
  arguments: one sum of 264 terms is split into its three consecutive blocks, the terms and the bias are regrouped, and the
  factors of the last product exchanged — commutativity and associativity only, which hold at the infinities, so the
  precondition that the inputs are finite is never opened.  The three heads are computed by the same operations in both
  programs.

  Claimed here: each of the three programs runs to the end without a fault and leaves its arguments unchanged (the
  kernel program read at machine words and at exact arithmetic; the reference at exact arithmetic); the exact reading of
  the kernel is its sanctioned one (no rewrite was applied, so there is nothing to show); and from memories that agree on
  the arguments the kernel and the reference, at exact arithmetic, end with the same result, entry by entry.
-/
import proofs.«143282_j32255204393220_2_alg».proof.Defs
import proofs.«143282_j32255204393220_2_alg».proof.Proof.Gen.Kernel
import proofs.«143282_j32255204393220_2_alg».proof.Proof.Gen.KernelIdeal
import proofs.«143282_j32255204393220_2_alg».proof.Proof.Gen.ReferenceIdeal
import proofs.«143282_j32255204393220_2_alg».proof.Proof.Gen.ReferenceIdeal.Run
import proofs.«143282_j32255204393220_2_alg».proof.Proof.Gen.ReferenceIdeal.Read
import proofs.«143282_j32255204393220_2_alg».proof.Proof.Gen.Pre_finite_inputs
import proofs.«143282_j32255204393220_2_alg».proof.Proof.WordFrame
import proofs.«143282_j32255204393220_2_alg».proof.Proof.IdealResult
import proofs.«143282_j32255204393220_2_alg».proof.Proof.RefScore
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel program, read at machine words, runs and leaves its arguments unchanged. -/
theorem frame_word : Cert.frame_Kernel := fun m ρ _ => Cert.Kernel.Around.frame m ρ

/-- The kernel program, read at exact arithmetic, runs and leaves its arguments unchanged. -/
theorem frame_exact : Cert.frame_KernelIdeal := fun m ρ _ => Cert.KernelIdeal.Around.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read at exact arithmetic. -/
theorem preserves : Cert.preserves_Kernel_KernelIdeal := trivial

set_option maxHeartbeats 4000000 in
open Cert.KernelIdeal Cert.KernelIdeal.Gen Cert.KernelIdeal.Around in
/-- From memories that agree on the arguments both programs end with the same result: the three heads are the same
    operations of the same arguments, and the reference's row of scores is the row the launch leaves. -/
theorem algebraic : Cert.algebraic_KernelIdeal_ReferenceIdeal := by
  intro m ρ m' ρ' _ hagree
  refine ⟨fun c => Cert.KernelIdeal.Around.result m c, Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  rw [a0, a1, a2, a3, a4, a5, a6, a7, a8, a9, a10, a11, a12, a13, a14, a15, a16, a17, a18, a19]
  unfold Cert.KernelIdeal.Around.result
  refine joined_congr _ _ _ _ _ _ _ _ _ ?_ ?_ ?_ ?_
  · symm
    dsimp only [V, V0]
    simp only [hostOps0, hostOps0_1, hostOps0_2, hostOps0_3, hostOps0_4, hostOps0_5, hostOps0_6, List.flatten_cons, List.flatten_nil,
      List.append_nil, List.cons_append, List.nil_append]
    after_results_simp <;> rfl
  · symm
    dsimp only [V, V0]
    simp only [hostOps0, hostOps0_1, hostOps0_2, hostOps0_3, hostOps0_4, hostOps0_5, hostOps0_6, List.flatten_cons, List.flatten_nil,
      List.append_nil, List.cons_append, List.nil_append]
    after_results_simp <;> rfl
  · symm
    dsimp only [V, V0]
    simp only [hostOps0, hostOps0_1, hostOps0_2, hostOps0_3, hostOps0_4, hostOps0_5, hostOps0_6, List.flatten_cons, List.flatten_nil,
      List.append_nil, List.cons_append, List.nil_append]
    after_results_simp <;> rfl
  · exact Cert.Teleport.Ref.val_main_v37_eq_score (m ((c.tc : Thread nD τ).loc main_arg0)) (m ((c.tc : Thread nD τ).loc main_arg1))
      (m ((c.tc : Thread nD τ).loc main_arg2)) (m ((c.tc : Thread nD τ).loc main_arg16)) (m ((c.tc : Thread nD τ).loc main_arg17))
      (m ((c.tc : Thread nD τ).loc main_arg18)) (m ((c.tc : Thread nD τ).loc main_arg19))

theorem claim : Cert.Claim :=
  ⟨Cert.Kernel.Gen.facts, Cert.KernelIdeal.Gen.facts, Cert.ReferenceIdeal.Gen.facts, Cert.Pre_finite_inputs.Gen.facts,
    frame_word, frame_exact, frame_reference, preserves, algebraic⟩

end Cert.Proof

end
